-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S8192x8 : Shape := ⟨2, ![8192, 8]⟩
abbrev S256x4096 : Shape := ⟨2, ![256, 4096]⟩
abbrev S256x8 : Shape := ⟨2, ![256, 8]⟩
abbrev S256 : Shape := ⟨1, ![256]⟩
abbrev S256x1 : Shape := ⟨2, ![256, 1]⟩
abbrev S8192x1 : Shape := ⟨2, ![8192, 1]⟩
abbrev S8192 : Shape := ⟨1, ![8192]⟩
abbrev S_ : Shape := ⟨0, ![]⟩

abbrev nBuf : Space → Nat
  | .hbm => 88
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x8, .f32⟩
  | .hbm, ⟨3, _⟩ => ⟨S8192x1, .f32⟩
  | .hbm, ⟨4, _⟩ => ⟨S8192, .f32⟩
  | .hbm, ⟨5, _⟩ => ⟨S8192x1, .f32⟩
  | .hbm, ⟨6, _⟩ => ⟨S8192, .f32⟩
  | .hbm, ⟨7, _⟩ => ⟨S8192x1, .f32⟩
  | .hbm, ⟨8, _⟩ => ⟨S8192, .f32⟩
  | .hbm, ⟨9, _⟩ => ⟨S8192x1, .f32⟩
  | .hbm, ⟨10, _⟩ => ⟨S8192, .f32⟩
  | .hbm, ⟨11, _⟩ => ⟨S8192x1, .f32⟩
  | .hbm, ⟨12, _⟩ => ⟨S8192, .f32⟩
  | .hbm, ⟨13, _⟩ => ⟨S8192x1, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x8, .f32⟩
  | .local _ .vmem, ⟨5, _⟩ => ⟨S256x8, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_v47 : Ref sig .tc := ⟨.hbm, 64, rfl⟩
abbrev main_cst_14 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_15 : Ref sig .tc := ⟨.hbm, 70, rfl⟩
abbrev main_v52 : Ref sig .tc := ⟨.hbm, 71, rfl⟩
abbrev main_v53 : Ref sig .tc := ⟨.hbm, 72, rfl⟩
abbrev main_cst_16 : Ref sig .tc := ⟨.hbm, 73, rfl⟩
abbrev main_v54 : Ref sig .tc := ⟨.hbm, 74, rfl⟩
abbrev main_v55 : Ref sig .tc := ⟨.hbm, 75, rfl⟩
abbrev main_cst_17 : Ref sig .tc := ⟨.hbm, 76, rfl⟩
abbrev main_v56 : Ref sig .tc := ⟨.hbm, 77, rfl⟩
abbrev main_cst_18 : Ref sig .tc := ⟨.hbm, 78, rfl⟩
abbrev main_v57 : Ref sig .tc := ⟨.hbm, 79, rfl⟩
abbrev main_v58 : Ref sig .tc := ⟨.hbm, 80, rfl⟩
abbrev main_cst_19 : Ref sig .tc := ⟨.hbm, 81, rfl⟩
abbrev main_v59 : Ref sig .tc := ⟨.hbm, 82, rfl⟩
abbrev main_cst_20 : Ref sig .tc := ⟨.hbm, 83, rfl⟩
abbrev main_v60 : Ref sig .tc := ⟨.hbm, 84, rfl⟩
abbrev main_cst_21 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  rotates_S256x4096_d1 : S256x4096.Rotates 1 none
  natLt_1_32 : 1 < 32
  iota_S256x4096_d1_w32 : S256x4096.Iotas .tc 32 [1]
  reduces_S256x4096_S256 : S256x4096.Reduces [1] S256
  shapeCasts_S256_S256x1 : S256.ShapeCasts S256x1
  concatenates_S256x1_S256x1_S256x1_S256x1_S256x1_S256x1_S256x1_S256x1_S256x8_d1 : Shape.Concatenates [S256x1, S256x1, S256x1, S256x1, S256x1, S256x1, S256x1, S256x1] S256x8 1
  inb_S256x8_S256x8_0_0 : ∀ a, (![0, 0] : Fin 2 → Nat) a + S256x8.size a ≤ S256x8.size a
  h_S256x8 : 0 < S256x8.numel
  slices_S8192x8_S8192x1_0_0 : S8192x8.Slices ![0, 0] S8192x1
  shapeCasts_S8192x1_S8192 : S8192x1.ShapeCasts S8192
  slices_S8192x8_S8192x1_0_1 : S8192x8.Slices ![0, 1] S8192x1
  slices_S8192x8_S8192x1_0_2 : S8192x8.Slices ![0, 2] S8192x1
  slices_S8192x8_S8192x1_0_3 : S8192x8.Slices ![0, 3] S8192x1
  slices_S8192x8_S8192x1_0_4 : S8192x8.Slices ![0, 4] S8192x1
  slices_S8192x8_S8192x1_0_5 : S8192x8.Slices ![0, 5] S8192x1
  bcast_S_S8192 : S_.BroadcastsInDim S8192 (![] : Fin 0 → Fin S8192.rank)
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8.size a ≤ S8192x8.size a
  hwx0_2 : ∀ i : grid0.Coords, EltTy.bits .f32 = 32 ∨ (Rect.block (s := S8192x8) S256x8.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192x4095 : Shape := ⟨2, ![8192, 4095]⟩
abbrev S8192 : Shape := ⟨1, ![8192]⟩
abbrev S8192x1 : Shape := ⟨2, ![8192, 1]⟩

abbrev nBuf : Space → Nat
  | .hbm => 128
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4095, .f32⟩
  | .hbm, ⟨9, _⟩ => ⟨S8192x4095, .f32⟩
  | .hbm, ⟨10, _⟩ => ⟨S8192x4095, .f32⟩
  | .hbm, ⟨11, _⟩ => ⟨S8192x4095, .f32⟩
  | .hbm, ⟨12, _⟩ => ⟨S8192x4095, .f32⟩
  | .hbm, ⟨13, _⟩ => ⟨S8192x4095, .f32⟩
  | .hbm, ⟨14, _⟩ => ⟨S8192x4095, .f32⟩
  | .hbm, ⟨15, _⟩ => ⟨S8192x4095, .f32⟩
  | .hbm, ⟨16, _⟩ => ⟨S8192x4095, .i1⟩
  | .hbm, ⟨17, _⟩ => ⟨S_, .f32⟩
  | .hbm, ⟨18, _⟩ => ⟨S8192x4095, .f32⟩
  | .hbm, ⟨19, _⟩ => ⟨S8192x4095, .i1⟩
  | .hbm, ⟨20, _⟩ => ⟨S8192x4095, .i1⟩
  | .hbm, ⟨21, _⟩ => ⟨S8192x4095, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .i32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x4096, .f32⟩
  | .hbm, ⟨60, _⟩ => ⟨S8192x4096, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .i32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S8192x1, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S8192x4096, .f32⟩
  | .hbm, ⟨103, _⟩ => ⟨S8192x4096, .f32⟩
  | .hbm, ⟨104, _⟩ => ⟨S8192x4096, .f32⟩
  | .hbm, ⟨105, _⟩ => ⟨S_, .f32⟩
  | .hbm, ⟨106, _⟩ => ⟨S8192, .f32⟩
  | .hbm, ⟨107, _⟩ => ⟨S_, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S8192, .f32⟩
  | .hbm, ⟨115, _⟩ => ⟨S8192, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_cst_0 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_cst_1 : Ref sig .tc := ⟨.hbm, 45, rfl⟩
abbrev main_call0_call0_v8 : Ref sig .tc := ⟨.hbm, 46, rfl⟩
abbrev main_call0_call0_cst_2 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_cst_3 : Ref sig .tc := ⟨.hbm, 52, rfl⟩
abbrev main_call0_call0_v13 : Ref sig .tc := ⟨.hbm, 53, rfl⟩
abbrev main_call0_call0_cst_4 : Ref sig .tc := ⟨.hbm, 54, rfl⟩
abbrev main_call0_call0_call0_v0 : Ref sig .tc := ⟨.hbm, 55, rfl⟩
abbrev main_call0_call0_call0_v1 : Ref sig .tc := ⟨.hbm, 56, rfl⟩
abbrev main_call0_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_7 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_c_10 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_cst_0 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_cst_1 : Ref sig .tc := ⟨.hbm, 83, rfl⟩
abbrev main_call1_call0_v8 : Ref sig .tc := ⟨.hbm, 84, rfl⟩
abbrev main_call1_call0_cst_2 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_call0_v12 : Ref sig .tc := ⟨.hbm, 89, rfl⟩
abbrev main_call1_call0_cst_3 : Ref sig .tc := ⟨.hbm, 90, rfl⟩
abbrev main_call1_call0_v13 : Ref sig .tc := ⟨.hbm, 91, rfl⟩
abbrev main_call1_call0_cst_4 : Ref sig .tc := ⟨.hbm, 92, rfl⟩
abbrev main_call1_call0_call0_v0 : Ref sig .tc := ⟨.hbm, 93, rfl⟩
abbrev main_call1_call0_call0_v1 : Ref sig .tc := ⟨.hbm, 94, rfl⟩
abbrev main_call1_v0 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_cst_11 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_12 : Ref sig .tc := ⟨.hbm, 105, rfl⟩
abbrev main_v43 : Ref sig .tc := ⟨.hbm, 106, rfl⟩
abbrev main_cst_13 : Ref sig .tc := ⟨.hbm, 107, rfl⟩
abbrev main_v44 : Ref sig .tc := ⟨.hbm, 108, rfl⟩
abbrev main_v45 : Ref sig .tc := ⟨.hbm, 109, rfl⟩
abbrev main_cst_14 : Ref sig .tc := ⟨.hbm, 110, rfl⟩
abbrev main_v46 : Ref sig .tc := ⟨.hbm, 111, rfl⟩
abbrev main_v47 : Ref sig .tc := ⟨.hbm, 112, rfl⟩
abbrev main_cst_15 : Ref sig .tc := ⟨.hbm, 113, rfl⟩
abbrev main_v48 : Ref sig .tc := ⟨.hbm, 114, rfl⟩
abbrev main_v49 : Ref sig .tc := ⟨.hbm, 115, rfl⟩
abbrev main_cst_16 : Ref sig .tc := ⟨.hbm, 116, rfl⟩
abbrev main_v50 : Ref sig .tc := ⟨.hbm, 117, rfl⟩
abbrev main_cst_17 : Ref sig .tc := ⟨.hbm, 118, rfl⟩
abbrev main_v51 : Ref sig .tc := ⟨.hbm, 119, rfl⟩
abbrev main_v52 : Ref sig .tc := ⟨.hbm, 120, rfl⟩
abbrev main_cst_18 : Ref sig .tc := ⟨.hbm, 121, rfl⟩
abbrev main_v53 : Ref sig .tc := ⟨.hbm, 122, rfl⟩
abbrev main_cst_19 : Ref sig .tc := ⟨.hbm, 123, rfl⟩
abbrev main_v54 : Ref sig .tc := ⟨.hbm, 124, rfl⟩
abbrev main_cst_20 : Ref sig .tc := ⟨.hbm, 125, rfl⟩
abbrev main_v55 : Ref sig .tc := ⟨.hbm, 126, rfl⟩
abbrev main_v56 : Ref sig .tc := ⟨.hbm, 127, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  slices_S8192x4096_S8192x4095_0_1 : S8192x4096.Slices ![0, 1] S8192x4095
  slices_S8192x4096_S8192x4095_0_0 : S8192x4096.Slices ![0, 0] S8192x4095
  bcast_S_S8192x4095 : S_.BroadcastsInDim S8192x4095 (![] : Fin 0 → Fin S8192x4095.rank)
  reducesTo_S8192x4095_S_d0_1 : S8192x4095.ReducesTo [0, 1] S_
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.RegionFrameBits.lean ====
/-
  The frame of the row-statistics program: its one pipelined region over 32 row tiles, then the 85 host
  operations that fold the statistics into the loss.

  Each grid point t fetches rows 256·t … 256·t + 255 of the two inputs (blocks of [256, 4096]), and the
  body stores ONE [256, 8] block, a pure function of the two input blocks (the skeleton's payload), which
  is written back to rows 256·t … of the [8192, 8] statistics array. Nothing is carried between points, so
  the proof data is: the arrays as launched; after the body each input buffer still at its block and the
  output buffer at the payload of the two blocks. The host operations after the region write only their own
  result buffers, never an input or the statistics array, so the inputs end as launched.
-/
import proofs.«171406_j30451318129051_2_alg».proof.Proof.Gen.Kernel.Launch
import proofs.«171406_j30451318129051_2_alg».proof.Proof.Gen.Kernel.Skeleton
import proofs.«171406_j30451318129051_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is checked by a structural recursion one step per coordinate
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core c's buffer contents when the region is entered: no host operation precedes it, so the launch memory. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region allocate nothing. -/
theorem tail_fresh : (hostOps1 : List (HloOp τ sig (Elt F))).Forall fun op => op.fresh = ∅ := by
  simp only [List.Forall]; repeat' constructor

set_option maxHeartbeats 8000000 in
/-- The program is its region continued by the 85 host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- No host operation after the region writes the first input. -/
theorem tail_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)
/-- Nor the second input. -/
theorem tail_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)
/-- Nor the statistics array the region wrote: each operation writes only its own result buffer. -/
theorem tail_keeps_stats : (hostOps1 : List (HloOp τ sig (Elt F))).Forall fun op => Proc.devRef .tc main_v0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

/-- The operations after the region touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop
/-- They write none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact (List.forall_iff_forall_mem.mp tail_keeps_arg0) op hop
  · exact (List.forall_iff_forall_mem.mp tail_keeps_arg1) op hop
  · exact (List.forall_iff_forall_mem.mp tail_keeps_stats) op hop

/-- The region finds each input as launched. -/
theorem V_arg0 (c : Dev nD) : V m c main_arg0 = m ((c : Thread nD τ).loc main_arg0) := rfl
theorem V_arg1 (c : Dev nD) : V m c main_arg1 = m ((c : Thread nD τ).loc main_arg1) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- For any proof data whose arrays are the entry contents, a run to the library's post gives the frame: each input is a
    staged array no point writes back, so it ends at its entry contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c)))⟩) h

/-! ## What the body leaves in the output buffer -/

/-- The whole [256, 8] block, as a rectangle of the output buffer. -/
abbrev rOut : Rect S256x8 := Rect.unit (s := S256x8) ![0, 0] S256x8.size inb_S256x8_S256x8_0_0
/-- The whole [256, 4096] block, as a rectangle of an input buffer. -/
abbrev rIn : Rect S256x4096 := Rect.unit (s := S256x4096) ![0, 0] S256x4096.size inb_S256x4096_S256x4096_0_0

/-- The output buffer after the body: its one store, of the payload of the two input blocks, over the whole block. -/
def outBlock (x0 : Vec F S256x4096 .f32) (x1 : Vec F S256x4096 .f32) : Vec F S256x8 .f32 :=
  View.canon [⟨rOut, k0_pay1 (View.ld x0 rIn) (View.ld x1 rIn)⟩]

/-- The one store covers the buffer. -/
theorem cover_out (p0 : Vec F S256x8 .f32) (y : S256x8.Idx) :
    ∃ pc ∈ ([⟨rOut, p0⟩] : List (View.Piece (Elt F) S256x8 .f32)), y ∈ pc.1.set :=
  View.cover_of_tiled [⟨rOut, p0⟩] S256x8.size (by rfl) y

/-! ## The body's triple -/

set_option maxHeartbeats 4000000 in
/-- The body on whole staging buffers, the inputs' at contents x0, x1 and the output's at anything, runs to the
    continuation with the inputs' as they were and the output's at `outBlock x0 x1`. -/
theorem sound_kernel (c : Dev nD) (E : Set ℕ) (i : grid0.Coords)
    (a1 : Memref sig .tc .vmem S256x4096 .f32) (h1 : a1.IsWhole) (a2 : Memref sig .tc .vmem S256x4096 .f32) (h2 : a2.IsWhole)
    (a3 : Memref sig .tc .vmem S256x8 .f32) (h3 : a3.IsWhole)
    (x0 : Vec F S256x4096 .f32) (x1 : Vec F S256x4096 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (outBlock x0 x1)) -∗ K ⟨⟩))
      ⊢ wp frame (wpE (defs₀ (F := F)) Variants.none c none) E (cc0__rowstats_kernel i a1 h1 a2 h2 a3 h3) K := by
  simp only [cc0__rowstats_kernel_eq_skeleton]; unfold cc0__rowstats_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core c: the arrays as the region finds them; after the body at point t each input's buffer at
    its block and the output's at `outBlock` of the two blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock (iblk m c 0 t) (iblk m c 1 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 16000000 in
set_option backward.isDefEq.respectTransparency.types false in
/-- From any memory with zero counters every weakly fair execution of the program on the TensorCores terminates, and in
    every final state each array of the pipeline holds what the library computes from the proof data and every other
    unscoped buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The frame at any float instance: the program runs to the end, faults nowhere, and its two inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Region

end
-- ==== Proof.RegionFrame.lean ====
/-
  The frame of the row-statistics program: its one pipelined region over 32 row tiles, then the 85 host
  operations that fold the statistics into the loss.

  Each grid point t fetches rows 256·t … 256·t + 255 of the two inputs (blocks of [256, 4096]), and the
  body stores ONE [256, 8] block, a pure function of the two input blocks (the skeleton's payload), which
  is written back to rows 256·t … of the [8192, 8] statistics array. Nothing is carried between points, so
  the proof data is: the arrays as launched; after the body each input buffer still at its block and the
  output buffer at the payload of the two blocks. The host operations after the region write only their own
  result buffers, never an input or the statistics array, so the inputs end as launched.
-/
import proofs.«171406_j30451318129051_2_alg».proof.Proof.Gen.KernelIdeal.Launch
import proofs.«171406_j30451318129051_2_alg».proof.Proof.Gen.KernelIdeal.Skeleton
import proofs.«171406_j30451318129051_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is checked by a structural recursion one step per coordinate
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core c's buffer contents when the region is entered: no host operation precedes it, so the launch memory. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region allocate nothing. -/
theorem tail_fresh : (hostOps1 : List (HloOp τ sig (Elt F))).Forall fun op => op.fresh = ∅ := by
  simp only [List.Forall]; repeat' constructor

set_option maxHeartbeats 8000000 in
/-- The program is its region continued by the 85 host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- No host operation after the region writes the first input. -/
theorem tail_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)
/-- Nor the second input. -/
theorem tail_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)
/-- Nor the statistics array the region wrote: each operation writes only its own result buffer. -/
theorem tail_keeps_stats : (hostOps1 : List (HloOp τ sig (Elt F))).Forall fun op => Proc.devRef .tc main_v0 ∉ op.writes := by
  simp only [hostOps1, List.Forall, StableHlo.nullary_writes, StableHlo.unary_writes, StableHlo.binary_writes, StableHlo.reshape_writes, Finset.mem_singleton]
  repeat' apply And.intro
  all_goals exact StableHlo.devRef_ne_of_ne (by decide)

/-- The operations after the region touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop
/-- They write none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact (List.forall_iff_forall_mem.mp tail_keeps_arg0) op hop
  · exact (List.forall_iff_forall_mem.mp tail_keeps_arg1) op hop
  · exact (List.forall_iff_forall_mem.mp tail_keeps_stats) op hop

/-- The region finds each input as launched. -/
theorem V_arg0 (c : Dev nD) : V m c main_arg0 = m ((c : Thread nD τ).loc main_arg0) := rfl
theorem V_arg1 (c : Dev nD) : V m c main_arg1 = m ((c : Thread nD τ).loc main_arg1) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the region -/

/-- For any proof data whose arrays are the entry contents, a run to the library's post gives the frame: each input is a
    staged array no point writes back, so it ends at its entry contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c)))⟩) h

/-! ## What the body leaves in the output buffer -/

/-- The whole [256, 8] block, as a rectangle of the output buffer. -/
abbrev rOut : Rect S256x8 := Rect.unit (s := S256x8) ![0, 0] S256x8.size inb_S256x8_S256x8_0_0
/-- The whole [256, 4096] block, as a rectangle of an input buffer. -/
abbrev rIn : Rect S256x4096 := Rect.unit (s := S256x4096) ![0, 0] S256x4096.size inb_S256x4096_S256x4096_0_0

/-- The output buffer after the body: its one store, of the payload of the two input blocks, over the whole block. -/
def outBlock (x0 : Vec F S256x4096 .f32) (x1 : Vec F S256x4096 .f32) : Vec F S256x8 .f32 :=
  View.canon [⟨rOut, k0_pay1 (View.ld x0 rIn) (View.ld x1 rIn)⟩]

/-- The one store covers the buffer. -/
theorem cover_out (p0 : Vec F S256x8 .f32) (y : S256x8.Idx) :
    ∃ pc ∈ ([⟨rOut, p0⟩] : List (View.Piece (Elt F) S256x8 .f32)), y ∈ pc.1.set :=
  View.cover_of_tiled [⟨rOut, p0⟩] S256x8.size (by rfl) y

/-! ## The body's triple -/

set_option maxHeartbeats 4000000 in
/-- The body on whole staging buffers, the inputs' at contents x0, x1 and the output's at anything, runs to the
    continuation with the inputs' as they were and the output's at `outBlock x0 x1`. -/
theorem sound_kernel (c : Dev nD) (E : Set ℕ) (i : grid0.Coords)
    (a1 : Memref sig .tc .vmem S256x4096 .f32) (h1 : a1.IsWhole) (a2 : Memref sig .tc .vmem S256x4096 .f32) (h2 : a2.IsWhole)
    (a3 : Memref sig .tc .vmem S256x8 .f32) (h3 : a3.IsWhole)
    (x0 : Vec F S256x4096 .f32) (x1 : Vec F S256x4096 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (outBlock x0 x1)) -∗ K ⟨⟩))
      ⊢ wp frame (wpE (defs₀ (F := F)) Variants.none c none) E (cc0__rowstats_kernel i a1 h1 a2 h2 a3 h3) K := by
  simp only [cc0__rowstats_kernel_eq_skeleton]; unfold cc0__rowstats_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core c: the arrays as the region finds them; after the body at point t each input's buffer at
    its block and the output's at `outBlock` of the two blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock (iblk m c 0 t) (iblk m c 1 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 16000000 in
set_option backward.isDefEq.respectTransparency.types false in
/-- From any memory with zero counters every weakly fair execution of the program on the TensorCores terminates, and in
    every final state each array of the pipeline holds what the library computes from the proof data and every other
    unscoped buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The frame at any float instance: the program runs to the end, faults nowhere, and its two inputs end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Region

end
-- ==== Proof.Spec.lean ====
/-
  The two programs' results as terms, cut where their mathematics meets.

  Write p, t for the two [8192, 4096] inputs and, per row r, Sp = ∑ p, St = ∑ t, Spp = ∑ p², Stt = ∑ t²,
  Spt = ∑ p·t over the 4096 lanes. Both programs return

      ½ · (X / 2²⁵) + ½ · (((1 − Y / (8192·4095)) + (∑ᵣ (1 − corrᵣ) / 2) / 8192) / 2)

  where X is the total squared error, Y the number of lanes 0 ≤ k < 4095 at which the first differences
  of p and of t agree in sign (or t's vanishes), and corrᵣ the row's correlation with the ε-shifted
  deviations. The kernel computes X, Y and corr from eight per-row statistics (`statsRow`); the
  reference from the arrays themselves. `lossTail` is the shared closing arithmetic.
-/
import proofs.«171406_j30451318129051_2_alg».proof.KernelIdeal
import proofs.«171406_j30451318129051_2_alg».proof.ReferenceIdeal
import Idealize.ShloMosaic.PureOps.Ideal
import Idealize.ShloMosaic.Lib.ValueIdx

noncomputable section

open Idealize.ShloMosaic Idealize.ShloMosaic.ValueIdx
open scoped BigOperators

namespace Cert.RowStats

/-! ## The per-row statistics the kernel's region leaves -/

/-- Lane k of a row counts 1 when k < 4095 and the steps x(k+1) − x(k), y(k+1) − y(k) have a positive
    product or y's step vanishes; the wrapped last lane (k + 1 = 0 in `Fin 4096`) counts 0. -/
def agreeAt (x y : Fin 4096 → EReal) (k : Fin 4096) : EReal :=
  if k.val < 4095 then
    (if 0 < (x (k + 1) - x k) * (y (k + 1) - y k) ∨ y (k + 1) - y k = 0 then 1 else 0)
  else 0

/-- The eight statistics of one row: ∑x, ∑y, ∑x², ∑y², ∑xy, the count of agreeing lanes, 0, 0. -/
def statsRow (x y : Fin 4096 → EReal) : Fin 8 → EReal
  | ⟨0, _⟩ => ∑ k, x k
  | ⟨1, _⟩ => ∑ k, y k
  | ⟨2, _⟩ => ∑ k, x k * x k
  | ⟨3, _⟩ => ∑ k, y k * y k
  | ⟨4, _⟩ => ∑ k, x k * y k
  | ⟨5, _⟩ => ∑ k, agreeAt x y k
  | ⟨_ + 6, _⟩ => 0

/-- The [8192, 8] array of statistics: row r, column j is statistic j of row r of the two inputs. -/
def KStats (p t : FVec Ideal Cert.KernelIdeal.S8192x4096 .f32) : FVec Ideal Cert.KernelIdeal.S8192x8 .f32 :=
  fun i =>
    let r : Fin 8192 := i 0
    let j : Fin 8 := i 1
    statsRow (fun k => p (ix2 r k)) (fun k => t (ix2 r k)) j

/-! ## The kernel's host arithmetic on the statistics -/

section Kernel
variable [Cert.KernelIdeal.Facts]
open Cert.KernelIdeal Cert.KernelIdeal.Facts₀

/-- A scalar word spread over the 8192 rows. -/
def splat (w : BitVec 32) : FVec Ideal S8192 .f32 :=
  broadcastInDim S8192 ![] bcast_S_S8192 (constant (F := Ideal) S_ .f32 w)

/-- Column `off 1` of the statistics as a vector over the rows. -/
def kcol (s : FVec Ideal S8192x8 .f32) (off : Fin 2 → Nat) (h : S8192x8.Slices off S8192x1) : FVec Ideal S8192 .f32 :=
  shapeCast S8192 (extractStridedSlice S8192x1 off s h) shapeCasts_S8192x1_S8192

/-- The total squared error from the statistics: ∑ᵣ (Spp + Stt − 2·Spt). -/
def kX (s : FVec Ideal S8192x8 .f32) : FVec Ideal S_ .f32 :=
  Host.reduceAdd (F := Ideal)
    (subf (addf (kcol s ![0, 2] slices_S8192x8_S8192x1_0_2) (kcol s ![0, 3] slices_S8192x8_S8192x1_0_3))
      (mulf (splat 0x40000000#32) (kcol s ![0, 4] slices_S8192x8_S8192x1_0_4)))
    (constant (F := Ideal) S_ .f32 0x00000000#32) reducesTo_S8192_S_d0 h_S_

/-- The total count of agreeing lanes. -/
def kY (s : FVec Ideal S8192x8 .f32) : FVec Ideal S_ .f32 :=
  Host.reduceAdd (F := Ideal) (kcol s ![0, 5] slices_S8192x8_S8192x1_0_5)
    (constant (F := Ideal) S_ .f32 0x00000000#32) reducesTo_S8192_S_d0 h_S_

/-- max ((Sxx − Sx·Sx / 4096) / 4095, 0): the row's unbiased variance from its sums. -/
def kVar (sx sxx : FVec Ideal S8192 .f32) : FVec Ideal S8192 .f32 :=
  maximumf
    (Host.divf (F := Ideal) (subf sxx (Host.divf (F := Ideal) (mulf sx sx) (splat 0x45800000#32))) (splat 0x457FF000#32))
    (splat 0x00000000#32)

/-- The per-row correlation from the statistics:
    (Spt / 4096 − Sp·St / 4096²) / ((√var_p + ε) · (√var_t + ε)). -/
def kCorr (s : FVec Ideal S8192x8 .f32) : FVec Ideal S8192 .f32 :=
  let sp := kcol s ![0, 0] slices_S8192x8_S8192x1_0_0
  let st := kcol s ![0, 1] slices_S8192x8_S8192x1_0_1
  let spp := kcol s ![0, 2] slices_S8192x8_S8192x1_0_2
  let stt := kcol s ![0, 3] slices_S8192x8_S8192x1_0_3
  let spt := kcol s ![0, 4] slices_S8192x8_S8192x1_0_4
  Host.divf (F := Ideal)
    (subf (Host.divf (F := Ideal) spt (splat 0x45800000#32))
      (Host.divf (F := Ideal) (mulf sp st) (splat 0x4B800000#32)))
    (mulf (addf (Host.sqrt (F := Ideal) (kVar sp spp)) (splat 0x358637BD#32))
      (addf (Host.sqrt (F := Ideal) (kVar st stt)) (splat 0x358637BD#32)))

/-- The closing arithmetic both programs share, on the total squared error X, the agreement count Y and
    the per-row correlations: ½·(X / 2²⁵) + ½·(((1 − Y / (8192·4095)) + (∑ᵣ (1 − corrᵣ)/2) / 8192) / 2). -/
def lossTail (X Y : FVec Ideal S_ .f32) (corr : FVec Ideal S8192 .f32) : FVec Ideal S_ .f32 :=
  addf
    (mulf (constant (F := Ideal) S_ .f32 0x3F000000#32)
      (Host.divf (F := Ideal) X (constant (F := Ideal) S_ .f32 0x4C000000#32)))
    (mulf (constant (F := Ideal) S_ .f32 0x3F000000#32)
      (Host.divf (F := Ideal)
        (addf
          (subf (constant (F := Ideal) S_ .f32 0x3F800000#32)
            (Host.divf (F := Ideal) Y (constant (F := Ideal) S_ .f32 0x4BFFF000#32)))
          (Host.divf (F := Ideal)
            (Host.reduceAdd (F := Ideal)
              (Host.divf (F := Ideal) (subf (splat 0x3F800000#32) corr) (splat 0x40000000#32))
              (constant (F := Ideal) S_ .f32 0x00000000#32) reducesTo_S8192_S_d0 h_S_)
            (constant (F := Ideal) S_ .f32 0x46000000#32)))
        (constant (F := Ideal) S_ .f32 0x40000000#32)))

/-- The kernel program's result from the statistics array its region leaves. -/
def KTail (s : FVec Ideal S8192x8 .f32) : FVec Ideal S_ .f32 :=
  lossTail (kX s) (kY s) (kCorr s)

end Kernel

/-! ## The reference's arithmetic on the arrays -/

section Reference
variable [Cert.ReferenceIdeal.Facts]
open Cert.ReferenceIdeal Cert.ReferenceIdeal.Facts₀

/-- The total squared error ∑ (p − t)² over both axes. -/
def rX (p t : FVec Ideal S8192x4096 .f32) : FVec Ideal S_ .f32 :=
  Host.reduceAdd (F := Ideal) (mulf (subf p t) (subf p t))
    (constant (F := Ideal) S_ .f32 0x00000000#32) reducesTo_S8192x4096_S_d0_1 h_S_

/-- The first differences along the lanes, x[:, 1:] − x[:, :-1]. -/
def rStep (x : FVec Ideal S8192x4096 .f32) : FVec Ideal S8192x4095 .f32 :=
  subf (extractStridedSlice S8192x4095 ![0, 1] x slices_S8192x4096_S8192x4095_0_1)
    (extractStridedSlice S8192x4095 ![0, 0] x slices_S8192x4096_S8192x4095_0_0)

/-- The count of positions where the steps' signs agree or t's step has sign 0. -/
def rY (p t : FVec Ideal S8192x4096 .f32) : FVec Ideal S_ .f32 :=
  let sp := Host.sign (F := Ideal) (rStep p)
  let st := Host.sign (F := Ideal) (rStep t)
  Host.reduceAdd (F := Ideal)
    (uitofp (F := Ideal) .f32
      (ori (cmpf .oeq sp st)
        (cmpf .oeq st (broadcastInDim S8192x4095 ![] bcast_S_S8192x4095 (constant (F := Ideal) S_ .f32 0x00000000#32)))))
    (constant (F := Ideal) S_ .f32 0x00000000#32) reducesTo_S8192x4095_S_d0_1 h_S_

/-- The row means as a column: (∑ₖ x) / 4096. -/
def rowMean (x : FVec Ideal S8192x4096 .f32) : FVec Ideal S8192x1 .f32 :=
  Host.divf (F := Ideal)
    (broadcastInDim S8192x1 ![0] bcast_S8192_S8192x1_0
      (Host.reduceAdd (F := Ideal) x (constant (F := Ideal) S_ .f32 0x00000000#32) reducesTo_S8192x4096_S8192_d1 h_S_))
    (broadcastInDim S8192x1 ![] bcast_S_S8192x1 (constant (F := Ideal) S_ .f32 0x45800000#32))

/-- The row standard deviations as a column, with `c` degrees of freedom removed:
    √(∑ₖ (x − mean)² / (4096 − c)), the quotient kept only when 4096 − c > 0. -/
def rowStd (x : FVec Ideal S8192x4096 .f32) (c : IVec S_ 32) : FVec Ideal S8192x1 .f32 :=
  let dev := subf x (broadcastInDim S8192x4096 ![0, 1] bcast_S8192x1_S8192x4096_0_1 (rowMean x))
  let n := subf (constant (F := Ideal) S_ .f32 0x45800000#32) (sitofp (F := Ideal) .f32 c)
  let q := Host.divf (F := Ideal)
    (broadcastInDim S8192x1 ![0] bcast_S8192_S8192x1_0
      (Host.reduceAdd (F := Ideal) (mulf dev dev) (constant (F := Ideal) S_ .f32 0x00000000#32)
        reducesTo_S8192x4096_S8192_d1 h_S_))
    (broadcastInDim S8192x1 ![] bcast_S_S8192x1 n)
  Host.sqrt (F := Ideal)
    (select (broadcastInDim S8192x1 ![] bcast_S_S8192x1 (cmpf .ogt n (constant (F := Ideal) S_ .f32 0x00000000#32)))
      q (broadcastInDim S8192x1 ![] bcast_S_S8192x1 (id (constant (F := Ideal) S_ .f32 0x7FC00000#32))))

/-- A row-normalised array: (x − mean) / (std + ε). -/
def rowNorm (x : FVec Ideal S8192x4096 .f32) : FVec Ideal S8192x4096 .f32 :=
  Host.divf (F := Ideal)
    (subf x (broadcastInDim S8192x4096 ![0, 1] bcast_S8192x1_S8192x4096_0_1 (rowMean x)))
    (broadcastInDim S8192x4096 ![0, 1] bcast_S8192x1_S8192x4096_0_1
      (addf (rowStd x (constantI S_ 32 1#32))
        (broadcastInDim S8192x1 ![] bcast_S_S8192x1 (constant (F := Ideal) S_ .f32 0x358637BD#32))))

/-- The per-row correlation: the lane mean of the product of the two row-normalised arrays. -/
def rCorr (p t : FVec Ideal S8192x4096 .f32) : FVec Ideal S8192 .f32 :=
  Host.divf (F := Ideal)
    (Host.reduceAdd (F := Ideal) (mulf (rowNorm p) (rowNorm t)) (constant (F := Ideal) S_ .f32 0x00000000#32)
      reducesTo_S8192x4096_S8192_d1 h_S_)
    (broadcastInDim S8192 ![] bcast_S_S8192 (constant (F := Ideal) S_ .f32 0x45800000#32))

end Reference

/-- The reference program's result. -/
def RTerm [Cert.KernelIdeal.Facts] [Cert.ReferenceIdeal.Facts]
    (p t : FVec Ideal Cert.ReferenceIdeal.S8192x4096 .f32) : FVec Ideal Cert.ReferenceIdeal.S_ .f32 :=
  lossTail (rX p t) (rY p t) (rCorr p t)

/-- An array all of whose entries are real numbers. -/
def Finite {S : Shape} (x : S.Idx → EReal) : Prop := ∀ i, ∃ a : ℝ, x i = (a : EReal)

end Cert.RowStats

end
-- ==== Proof.Payload.lean ====
/-
  The kernel body's arithmetic on one [256, 4096] block pair, read index by index.

  The body sums, along the 4096 lanes of each row, the entries of x, of y, of x², y², x·y and of the masked
  agreement indicator, turns each [256] vector of sums into a [256, 1] column and lays the six columns and two
  zero columns side by side. Read at (i, j) this is statistic j of row i of the pair (`statsRow`). The indicator
  compares each lane with its right neighbour, fetched by a roll of the lanes by 4095 ≡ −1 (mod 4096); the
  wrapped last lane is masked out by the lane number, exactly as `agreeAt` leaves it out.
-/
import proofs.«171406_j30451318129051_2_alg».proof.Proof.Spec
import proofs.«171406_j30451318129051_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx Cert.RowStats
open scoped BigOperators

namespace Cert.RowStats.Payload

variable [Cert.KernelIdeal.Facts]
open Cert.KernelIdeal Cert.KernelIdeal.Facts₀

/-- A lane sum with the zero accumulator word, read at row i: the plain sum over the 4096 lanes. -/
theorem laneSum_apply (src : FVec Ideal S256x4096 .f32) (h : S256x4096.Reduces [1] S256) (hφ : FKind.Formats .f32)
    (hacc : (0x00000000#32 : BitVec 32) = 0x00000000#32) (i : Fin 256) :
    multiReduction (F := Ideal) .add [1] S256 src 0x00000000#32 h hφ hacc (ix1 i) = ∑ k : Fin 4096, src (ix2 i k) := by
  refine (Ideal.multiReduction_add_single src 0x00000000#32 h hφ hacc (ix1 i)).trans ?_
  refine Finset.sum_congr rfl fun k _ => congrArg src ?_
  funext c
  apply Fin.ext
  match c with
  | ⟨0, _⟩ => rfl
  | ⟨1, _⟩ => rfl

/-- The keepdims column cast [256] → [256, 1] read at (i, 0): entry i. -/
theorem colCast_apply {α : Type} (v : S256.Idx → α) (h : S256.ShapeCasts S256x1) (i : Fin 256) (z : Fin 1) :
    shapeCast S256x1 v h (ix2 i z) = v (ix1 i) := by
  refine shapeCast_apply v h (ix2 i z) (ix1 i) ?_
  rw [Shape.rowMajor_val_two, Shape.rowMajor_val_one]
  have hz : z.val = 0 := by omega
  show i.val = i.val * 1 + z.val
  omega

/-- A roll by 4095 along the 4096 lanes: lane k holds the operand's lane k + 1, the last lane the first. -/
theorem roll_apply {α : Type} (x : S256x4096.Idx → α) (h : S256x4096.Rotates 1 none) (i : Fin 256) (k : Fin 4096) :
    dynamicRotate 1 4095#32 none x h (ix2 i k) = x (ix2 i (k + 1)) := by
  unfold dynamicRotate
  refine congrArg x (funext fun b => ?_)
  match b with
  | ⟨0, _⟩ => rfl
  | ⟨1, _⟩ =>
    apply Fin.ext
    show (k.val + 4096 - (4095 + 0) % 4096) % 4096 = (k + 1 : Fin 4096).val
    rw [Fin.val_add]
    show _ = (k.val + 1) % 4096
    have := k.isLt
    omega

/-- Eight [256, 1] columns laid side by side, read at (i, j): column j at row i. -/
theorem concat8_apply {α : Type} (c0 c1 c2 c3 c4 c5 c6 c7 : S256x1.Idx → α)
    (h : Shape.Concatenates [S256x1, S256x1, S256x1, S256x1, S256x1, S256x1, S256x1, S256x1] S256x8 1)
    (i : Fin 256) (j : Fin 8) :
    concatenate S256x8 1 [⟨S256x1, c0⟩, ⟨S256x1, c1⟩, ⟨S256x1, c2⟩, ⟨S256x1, c3⟩, ⟨S256x1, c4⟩, ⟨S256x1, c5⟩,
        ⟨S256x1, c6⟩, ⟨S256x1, c7⟩] h (ix2 i j)
      = (match j with
          | ⟨0, _⟩ => c0 | ⟨1, _⟩ => c1 | ⟨2, _⟩ => c2 | ⟨3, _⟩ => c3 | ⟨4, _⟩ => c4 | ⟨5, _⟩ => c5
          | ⟨6, _⟩ => c6 | ⟨_ + 7, _⟩ => c7) (ix2 i 0) := by
  match j with
  | ⟨0, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 0 (by simp) S256x1 c0 rfl rfl 0 rfl (ix2 i 0)
      (fun b hb => by
        match b with
        | ⟨0, _⟩ => rfl
        | ⟨1, _⟩ => exact absurd rfl hb) rfl
  | ⟨1, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 1 (by simp) S256x1 c1 rfl rfl 1 rfl (ix2 i 0)
      (fun b hb => by
        match b with
        | ⟨0, _⟩ => rfl
        | ⟨1, _⟩ => exact absurd rfl hb) rfl
  | ⟨2, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 2 (by simp) S256x1 c2 rfl rfl 2 rfl (ix2 i 0)
      (fun b hb => by
        match b with
        | ⟨0, _⟩ => rfl
        | ⟨1, _⟩ => exact absurd rfl hb) rfl
  | ⟨3, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 3 (by simp) S256x1 c3 rfl rfl 3 rfl (ix2 i 0)
      (fun b hb => by
        match b with
        | ⟨0, _⟩ => rfl
        | ⟨1, _⟩ => exact absurd rfl hb) rfl
  | ⟨4, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 4 (by simp) S256x1 c4 rfl rfl 4 rfl (ix2 i 0)
      (fun b hb => by
        match b with
        | ⟨0, _⟩ => rfl
        | ⟨1, _⟩ => exact absurd rfl hb) rfl
  | ⟨5, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 5 (by simp) S256x1 c5 rfl rfl 5 rfl (ix2 i 0)
      (fun b hb => by
        match b with
        | ⟨0, _⟩ => rfl
        | ⟨1, _⟩ => exact absurd rfl hb) rfl
  | ⟨6, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 6 (by simp) S256x1 c6 rfl rfl 6 rfl (ix2 i 0)
      (fun b hb => by
        match b with
        | ⟨0, _⟩ => rfl
        | ⟨1, _⟩ => exact absurd rfl hb) rfl
  | ⟨7, _⟩ =>
    exact concatenate_apply_piece (t := S256x8) (1 : Fin 2)
      [⟨S256x1, c0⟩, ⟨S256x1, c1⟩, ⟨S256x1, c2⟩, ⟨S256x1, c3⟩, ⟨S256x1, c4⟩, ⟨S256x1, c5⟩, ⟨S256x1, c6⟩, ⟨S256x1, c7⟩]
      h _ 7 (by simp) S256x1 c7 rfl rfl 7 rfl (ix2 i 0)
      (fun b hb => by
        match b with
        | ⟨0, _⟩ => rfl
        | ⟨1, _⟩ => exact absurd rfl hb) rfl

/-- The lane number as a 32-bit word is below 4095 exactly when the lane is. -/
theorem lane_slt (k : Fin 4096) :
    IntOp.cmpi .slt (BitVec.ofNat 32 k.val) 4095#32 = if k.val < 4095 then 1#1 else 0#1 := by
  have hk := k.isLt
  unfold IntOp.cmpi
  show BitVec.ofBool ((BitVec.ofNat 32 k.val).slt 4095#32) = _
  have e : (BitVec.ofNat 32 k.val).slt 4095#32 = decide (k.val < 4095) := by
    rw [BitVec.slt_eq_decide, BitVec.toInt_ofNat']
    have h1 : ((k.val : Int)).bmod (2 ^ 32) = k.val := by
      apply Int.bmod_eq_of_le <;> omega
    have h2 : (4095#32 : BitVec 32).toInt = 4095 := by decide
    rw [h1, h2]
    simp
  rw [e]
  by_cases h : k.val < 4095 <;> simp [h]

/-- The indicator word of "a > 0 or b = 0", widened to 32 bits and read as a float: 1 or 0. -/
theorem indicator_val (a b : EReal) :
    (((BitVec.setWidth 32 (IntOp.ori (Ideal.cmp .ogt a 0) (Ideal.cmp .oeq b 0))).toInt : ℝ) : EReal)
      = if 0 < a ∨ b = 0 then 1 else 0 := by
  unfold Ideal.cmp IntOp.ori
  by_cases h1 : 0 < a <;> by_cases h2 : b = 0 <;> simp [h1, h2] <;> rfl

/-- A lanewise `or` of two masks, read at an index. -/
theorem ori_apply {s : Shape} {w : Nat} (x y : IVec s w) (i : s.Idx) : ori x y i = IntOp.ori (x i) (y i) := rfl

/-- A lanewise integer comparison, read at an index. -/
theorem cmpi_apply {s : Shape} {w : Nat} (p : CmpIPredicate) (x y : IVec s w) (i : s.Idx) :
    cmpi p x y i = IntOp.cmpi p (x i) (y i) := rfl

/-- One lane of the masked agreement indicator: the kernel's word arithmetic is `agreeAt`. -/
theorem agree_lane (x0 x1 : Vec Ideal S256x4096 .f32) (i : Fin 256) (k : Fin 4096) :
    Scalar.select (IntOp.cmpi .slt (BitVec.ofNat 32 k.val) 4095#32)
        ((((BitVec.setWidth 32 (IntOp.ori
            (Ideal.cmp .ogt ((x0 (ix2 i (k + 1)) - x0 (ix2 i k)) * (x1 (ix2 i (k + 1)) - x1 (ix2 i k))) (Ideal.ofBits .f32 0x00000000#32))
            (Ideal.cmp .oeq (x1 (ix2 i (k + 1)) - x1 (ix2 i k)) (Ideal.ofBits .f32 0x00000000#32)))).toInt : ℝ) : EReal))
        (Ideal.ofBits .f32 0x00000000#32)
      = agreeAt (fun k => x0 (ix2 i k)) (fun k => x1 (ix2 i k)) k := by
  rw [lane_slt, Ideal.ofBits_zero_f32, indicator_val]
  unfold agreeAt
  by_cases h : k.val < 4095
  · rw [if_pos h, if_pos h, select_one]
  · rw [if_neg h, if_neg h, select_zero]

end Cert.RowStats.Payload

namespace Cert.RowStats

variable [Cert.KernelIdeal.Facts]
open Cert.KernelIdeal Cert.KernelIdeal.Facts₀ Cert.RowStats.Payload

/-- The block's stored [256, 8] value at (i, j) is statistic j of row i of the two loaded blocks. -/
theorem pay_apply (x0 x1 : Vec Ideal S256x4096 .f32) (i : Fin 256) (j : Fin 8) :
    Gen.k0_pay1 (F := Ideal) x0 x1 (ix2 i j)
      = statsRow (fun k => x0 (ix2 i k)) (fun k => x1 (ix2 i k)) j := by
  unfold Gen.k0_pay1
  refine (concat8_apply _ _ _ _ _ _ _ _ _ i j).trans ?_
  match j with
  | ⟨0, _⟩ =>
    refine (colCast_apply _ _ i 0).trans ?_
    exact laneSum_apply _ _ _ _ i
  | ⟨1, _⟩ =>
    refine (colCast_apply _ _ i 0).trans ?_
    exact laneSum_apply _ _ _ _ i
  | ⟨2, _⟩ =>
    refine (colCast_apply _ _ i 0).trans ?_
    exact laneSum_apply _ _ _ _ i
  | ⟨3, _⟩ =>
    refine (colCast_apply _ _ i 0).trans ?_
    exact laneSum_apply _ _ _ _ i
  | ⟨4, _⟩ =>
    refine (colCast_apply _ _ i 0).trans ?_
    exact laneSum_apply _ _ _ _ i
  | ⟨5, _⟩ =>
    refine (colCast_apply _ _ i 0).trans ?_
    refine (laneSum_apply _ _ _ _ i).trans ?_
    refine Finset.sum_congr rfl fun k _ => ?_
    refine Eq.trans ?_ (agree_lane x0 x1 i k)
    simp only [select_apply, sitofp_apply, extui_apply, cmpf_apply, mulf_apply, subf_apply, broadcast_apply,
      ori_apply, cmpi_apply]
    rw [roll_apply x0 _ i k, roll_apply x1 _ i k, iota_single_apply]
    rfl
  | ⟨6, _⟩ => exact Ideal.ofBits_zero_f32
  | ⟨7, _⟩ => exact Ideal.ofBits_zero_f32

end Cert.RowStats

end
-- ==== Proof.RegionValue.lean ====
/-
  The idealized kernel's result as a function of its inputs.

  Point t of the grid writes back rows 256·t … 256·t + 255 of the [8192, 8] statistics array, and what it writes
  is the payload of rows 256·t … of the two inputs; the payload's row i depends on row i of each block alone, so
  the 32 blocks are the restrictions of ONE whole-array function, `KStats` of the two inputs, and they tile the
  array. The 85 host operations after the region then compute `KTail` of that array.
-/
import proofs.«171406_j30451318129051_2_alg».proof.Proof.RegionFrame
import proofs.«171406_j30451318129051_2_alg».proof.Proof.Spec
import proofs.«171406_j30451318129051_2_alg».proof.Proof.Payload
import Idealize.ShloMosaic.Lib.Pipeline.Value
import Idealize.ShloMosaic.Lib.StableHlo.Run
import Idealize.ShloMosaic.Lib.ValueIdx

set_option maxRecDepth 16384

noncomputable section

namespace Cert.KernelIdeal.RegionValue

open Cert.KernelIdeal Cert.KernelIdeal.Gen Cert.KernelIdeal.Region Cert.RowStats
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 points: both inputs' blocks and the output's block sit at row tile t, lane
    tile 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the statistics of the inputs as the region finds them. -/
theorem flushed_eq (c : Dev nD) (t : Fin cfg0.N) :
    (dats m 0 c).flushed 2 t = ((cfg0.win 2).blk t).view.read (Elt Ideal) (KStats (V m c main_arg0) (V m c main_arg1)) := by
  show (cfg0.win 2).cut (grid0.coords t) ((dats m 0 c).after 2 t) = _
  rw [after_2]
  unfold outBlock
  rw [View.canon_unit_zero hz]
  simp only [View.ld_unit_zero (S := S256x4096) hz]
  obtain ⟨e0, e1, e2, e3, e4, e5⟩ := idx_facts t
  funext j
  obtain ⟨i, q, rfl⟩ : ∃ (i : Fin 256) (q : Fin 8), j = ix2 i q := ⟨j 0, j 1, eq_ix2 j⟩
  have ht : t.val < 32 := lt_of_lt_of_eq t.isLt N_0
  let r : Fin 8192 := ⟨t.val * 256 + i.val, by omega⟩
  have hout : ((cfg0.win 2).blk t).view.emb (ix2 i q) = ix2 r q := by
    funext a; apply Fin.ext
    match a with
    | ⟨0, _⟩ => show win0_2.index t (0 : Fin 2) * 256 + 1 * i.val = t.val * 256 + i.val; omega
    | ⟨1, _⟩ => show win0_2.index t (1 : Fin 2) * 8 + 1 * q.val = q.val; omega
  have hin0 : ∀ k : Fin 4096, ((cfg0.win 0).blk t).view.emb (ix2 i k) = ix2 r k := fun k => by
    funext a; apply Fin.ext
    match a with
    | ⟨0, _⟩ => show win0_0.index t (0 : Fin 2) * 256 + 1 * i.val = t.val * 256 + i.val; omega
    | ⟨1, _⟩ => show win0_0.index t (1 : Fin 2) * 4096 + 1 * k.val = k.val; omega
  have hin1 : ∀ k : Fin 4096, ((cfg0.win 1).blk t).view.emb (ix2 i k) = ix2 r k := fun k => by
    funext a; apply Fin.ext
    match a with
    | ⟨0, _⟩ => show win0_1.index t (0 : Fin 2) * 256 + 1 * i.val = t.val * 256 + i.val; omega
    | ⟨1, _⟩ => show win0_1.index t (1 : Fin 2) * 4096 + 1 * k.val = k.val; omega
  have h0 : ∀ k : Fin 4096, iblk m c 0 t (ix2 i k) = V m c main_arg0 (ix2 r k) := fun k => by
    show V m c main_arg0 (((cfg0.win 0).blk t).view.emb (ix2 i k)) = _
    rw [hin0 k]
  have h1 : ∀ k : Fin 4096, iblk m c 1 t (ix2 i k) = V m c main_arg1 (ix2 r k) := fun k => by
    show V m c main_arg1 (((cfg0.win 1).blk t).view.emb (ix2 i k)) = _
    rw [hin1 k]
  show k0_pay1 (iblk m c 0 t) (iblk m c 1 t) (ix2 i q)
    = KStats (V m c main_arg0) (V m c main_arg1) (((cfg0.win 2).blk t).view.emb (ix2 i q))
  rw [hout, pay_apply]
  simp only [h0, h1]
  rfl

/-- An index of the statistics array is in point t's block iff each coordinate is in the block's range. -/
theorem mem_blk (t : Fin cfg0.N) (i : S8192x8.Idx) :
    i ∈ ((cfg0.win 2).blk t).view.set ↔ ∀ a : Fin 2, win0_2.index t a * S256x8.size a ≤ (i a).val ∧ (i a).val < win0_2.index t a * S256x8.size a + S256x8.size a := by
  show i ∈ ((View.whole main_v0).slice (win0_2.rect t)).set ↔ _
  rw [View.set_slice_whole, Rect.mem_set_unit]
  exact Iff.rfl

/-- Row r of the array lies in the block of point r / 256: the 32 blocks tile the array. -/
theorem cover (i : S8192x8.Idx) : ∃ t : Fin cfg0.N, (cfg0.win 2).flush t = true ∧ i ∈ ((cfg0.win 2).blk t).view.set := by
  have hi0 : (i 0).val < 8192 := (i 0).isLt
  have hi1 : (i 1).val < 8 := (i 1).isLt
  let t : Fin cfg0.N := ⟨(i 0).val / 256, by rw [show cfg0.N = 32 from N_0]; omega⟩
  have htv : t.val = (i 0).val / 256 := rfl
  obtain ⟨e0, e1, e2, e3, e4, e5⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 8 ≤ (i 1).val ∧ (i 1).val < win0_2.index t (1 : Fin 2) * 8 + 8; omega

/-- The statistics array after the region is `KStats` of the two inputs as launched. -/
theorem final (c : Dev nD) : (dats m 0 c).arrAt 2 cfg0.N
    = KStats (m ((c : Thread nD τ).loc main_arg0)) (m ((c : Thread nD τ).loc main_arg1)) :=
  (dats m 0 c).arrAt_eq_of_cover 2 (KStats (V m c main_arg0) (V m c main_arg1)) (fun t _ => flushed_eq m c t) cover

/-! ## The host operations after the region -/

set_option maxHeartbeats 8000000 in
/-- The 85 host operations, run on the region's result, leave `KTail` of the statistics array in the result buffer:
    six column slices, the sums over the rows, and the closing arithmetic, read off operation by operation. -/
theorem tail_eq (c : Dev nD) :
    Pipeline.afterTail₀ cfgs (dats m) 0 (V0 m) [hostOps1] c main_v62 = KTail ((dats m 0 c).arrAt 2 cfg0.N) := by
  unfold Pipeline.afterTail₀
  show StableHlo.after hostOps1 _ (Proc.devRef .tc main_v62) = _
  after_results_simp
  rw [show Pipeline.withArrays (cfgs 0).spec c (V0 m c) (fun w => (dats m 0 c).arrAt w (cfgs 0).N) (Proc.devRef .tc main_v0)
        = (dats m 0 c).arrAt 2 cfg0.N from Pipeline.withArrays_arr spec0 launch0.win.arr_inj c _ _ 2]
  generalize (dats m 0 c).arrAt 2 cfg0.N = s
  rfl

/-! ## The run, read -/

/-- Every weakly fair execution of the idealized kernel program terminates with its result at `KTail (KStats p t)` of
    the launched inputs p, t, and the inputs unchanged. -/
theorem run : θ_run defs (onTc (τ := τ) (main (F := Ideal))) ⟨m, fun _ => 0, ρ⟩ fun r => ∀ c : Dev nD,
      r.2.mem ((c.tc : Thread nD τ).loc main_v62)
        = KTail (KStats (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v62 (Pipeline.mem_restRefs_of main_v62 (by decide) (by decide))).trans
        ((tail_eq m c).trans (congrArg KTail (final m c))),
      ((h c).1 0).trans (((dats m 0 c).arrAt_in 0 rfl _).trans ((A_eq m c 0).trans (V_arg0 m c))),
      ((h c).1 1).trans (((dats m 0 c).arrAt_in 1 rfl _).trans ((A_eq m c 1).trans (V_arg1 m c)))⟩)
    (run_main m ρ)

end Cert.KernelIdeal.RegionValue

end
-- ==== Proof.RefRun.lean ====
/-
  The reference program's run, read back.

  The reference is a host-only program: a straight line of 126 tensor operations once its two calls of the
  row-standard-deviation function (which calls the variance function, which calls the select function) are
  unfolded at their call sites over the calls' own buffers. A straight line of operations run from launch
  contents m leaves each buffer at the fold of the operations' results over m; read at the result buffer that
  fold is the composed term of the two arguments, which is `RTerm` line for line: the total squared error, the
  count of agreeing steps, the per-row correlation of the two row-normalised arrays, and the closing arithmetic.
  The two argument buffers are written by no operation, so they end as they started.
-/
import proofs.«171406_j30451318129051_2_alg».proof.Proof.Spec
import proofs.«171406_j30451318129051_2_alg».proof.Proof.Gen.ReferenceIdeal
import Idealize.ShloMosaic.Lib.StableHlo.Run

noncomputable section

namespace Cert.RowStats.RefRun

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's 126 operations in order, the two calls unfolded: each call of the standard-deviation function is
    the variance function's twenty operations over that call's buffers, the select function's three, and the
    square root. -/
abbrev ops : List (HloOp τ sig (Elt F)) :=
  [ StableHlo.binary main_arg0 main_arg1 main_v0 (subf : (⟨S8192x4096, .f32⟩ : BufTy).Contents (Elt F) → (⟨S8192x4096, .f32⟩ : BufTy).Contents (Elt F) → (⟨S8192x4096, .f32⟩ : BufTy).Contents (Elt F)),
    StableHlo.binary main_v0 main_v0 main_v1 (mulf : (⟨S8192x4096, .f32⟩ : BufTy).Contents (Elt F) → (⟨S8192x4096, .f32⟩ : BufTy).Contents (Elt F) → (⟨S8192x4096, .f32⟩ : BufTy).Contents (Elt F)),
    StableHlo.nullary main_cst (constant S_ .f32 0x00000000#32),
    StableHlo.binary main_v1 main_cst main_v2 ((fun x v => Host.reduceAdd x v reducesTo_S8192x4096_S_d0_1 h_S_) : (⟨S8192x4096, .f32⟩ : BufTy).Contents (Elt F) → (⟨S_, .f32⟩ : BufTy).Contents (Elt F) → (⟨S_, .f32⟩ : BufTy).Contents (Elt F)),
    StableHlo.nullary main_cst_0 (constant S_ .f32 0x4C000000#32),
    StableHlo.binary main_v2 main_cst_0 main_v3 (Host.divf : (⟨S_, .f32⟩ : BufTy).Contents (Elt F) → (⟨S_, .f32⟩ : BufTy).Contents (Elt F) → (⟨S_, .f32⟩ : BufTy).Contents (Elt F)),
    StableHlo.unary main_arg0 main_v4 ((extractStridedSlice S8192x4095 ![0, 1] · slices_S8192x4096_S8192x4095_0_1) : (⟨S8192x4096, .f32⟩ : BufTy).Contents (Elt F) → (⟨S8192x4095, .f32⟩ : BufTy).Contents (Elt F)),
    StableHlo.unary main_arg0 main_v5 ((extractStridedSlice S8192x4095 ![0, 0] · slices_S8192x4096_S8192x4095_0_0) : (⟨S8192x4096, .f32⟩ : BufTy).Contents (Elt F) → (⟨S8192x4095, .f32⟩ : BufTy).Contents (Elt F)),
    StableHlo.binary main_v4 main_v5 main_v6 (subf : (⟨S8192x4095, .f32⟩ : BufTy).Contents (Elt F) → (⟨S8192x4095, .f32⟩ : BufTy).Contents (Elt F) → (⟨S8192x4095, .f32⟩ : BufTy).Contents (Elt F)),
    StableHlo.unary main_arg1 main_v7 ((extractStridedSlice S8192x4095 ![0, 1] · slices_S8192x4096_S8192x4095_0_1) : (⟨S8192x4096, .f32⟩ : BufTy).Contents (Elt F) → (⟨S8192x4095, .f32⟩ : BufTy).Contents (Elt F)),
    StableHlo.unary main_arg1 main_v8 ((extractStridedSlice S8192x4095 ![0, 0] · slices_S8192x4096_S8192x4095_0_0) : (⟨S8192x4096, .f32⟩ : BufTy).Contents (Elt F) → (⟨S8192x4095, .f32⟩ : BufTy).Contents (Elt F)),
    StableHlo.binary main_v7 main_v8 main_v9 (subf : (⟨S8192x4095, .f32⟩ : BufTy).Contents (Elt F) → (⟨S8192x4095, .f32⟩ : BufTy).Contents (Elt F) → (⟨S8192x4095, .f32⟩ : BufTy).Contents (Elt F)),
    StableHlo.unary main_v6 main_v10 (Host.sign : (⟨S8192x4095, .f32⟩ : BufTy).Contents (Elt F) → (⟨S8192x4095, .f32⟩ : BufTy).Contents (Elt F)),
    StableHlo.unary main_v9 main_v11 (Host.sign : (⟨S8192x4095, .f32⟩ : BufTy).Contents (Elt F) → (⟨S8192x4095, .f32⟩ : BufTy).Contents (Elt F)),
    StableHlo.binary main_v10 main_v11 main_v12 (cmpf .oeq : (⟨S8192x4095, .f32⟩ : BufTy).Contents (Elt F) → (⟨S8192x4095, .f32⟩ : BufTy).Contents (Elt F) → (⟨S8192x4095, .i1⟩ : BufTy).Contents (Elt F)),
    StableHlo.nullary main_cst_1 (constant S_ .f32 0x00000000#32),
    StableHlo.unary main_cst_1 main_v13 (broadcastInDim S8192x4095 ![] bcast_S_S8192x4095 : (⟨S_, .f32⟩ : BufTy).Contents (Elt F) → (⟨S8192x4095, .f32⟩ : BufTy).Contents (Elt F)),
    StableHlo.binary main_v11 main_v13 main_v14 (cmpf .oeq : (⟨S8192x4095, .f32⟩ : BufTy).Contents (Elt F) → (⟨S8192x4095, .f32⟩ : BufTy).Contents (Elt F) → (⟨S8192x4095, .i1⟩ : BufTy).Contents (Elt F)),
    StableHlo.binary main_v12 main_v14 main_v15 (ori : (⟨S8192x4095, .i1⟩ : BufTy).Contents (Elt F) → (⟨S8192x4095, .i1⟩ : BufTy).Contents (Elt F) → (⟨S8192x4095, .i1⟩ : BufTy).Contents (Elt F)),
    StableHlo.unary main_v15 main_v16 (uitofp .f32 : (⟨S8192x4095, .i1⟩ : BufTy).Contents (Elt F) → (⟨S8192x4095, .f32⟩ : BufTy).Contents (Elt F)),
    StableHlo.nullary main_cst_2 (constant S_ .f32 0x00000000#32),
    StableHlo.binary main_v16 main_cst_2 main_v17 ((fun x v => Host.reduceAdd x v reducesTo_S8192x4095_S_d0_1 h_S_) : (⟨S8192x4095, .f32⟩ : BufTy).Contents (Elt F) → (⟨S_, .f32⟩ : BufTy).Contents (Elt F) → (⟨S_, .f32⟩ : BufTy).Contents (Elt F)),
    StableHlo.nullary main_cst_3 (constant S_ .f32 0x4BFFF000#32),
    StableHlo.binary main_v17 main_cst_3 main_v18 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x3F800000#32),
    StableHlo.binary main_cst_4 main_v18 main_v19 (subf : (⟨S_, .f32⟩ : BufTy).Contents (Elt F) → (⟨S_, .f32⟩ : BufTy).Contents (Elt F) → (⟨S_, .f32⟩ : BufTy).Contents (Elt F)),
    StableHlo.nullary main_cst_5 (constant S_ .f32 0x00000000#32),
    StableHlo.binary main_arg0 main_cst_5 main_v20 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v20 main_v21 (broadcastInDim S8192x1 ![0] bcast_S8192_S8192x1_0 : (⟨S8192, .f32⟩ : BufTy).Contents (Elt F) → (⟨S8192x1, .f32⟩ : BufTy).Contents (Elt F)),
    StableHlo.nullary main_cst_6 (constant S_ .f32 0x45800000#32),
    StableHlo.unary main_cst_6 main_v22 (broadcastInDim S8192x1 ![] bcast_S_S8192x1 : (⟨S_, .f32⟩ : BufTy).Contents (Elt F) → (⟨S8192x1, .f32⟩ : BufTy).Contents (Elt F)),
    StableHlo.binary main_v21 main_v22 main_v23 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 1#32),
    StableHlo.TRef.nullary main_call0.call0.cst (constant S_ .f32 0x00000000#32),
    StableHlo.TRef.binary (.of main_arg0) main_call0.call0.cst main_call0.call0.v0 (fun x v => Host.reduceAdd x v reducesTo_S8192x4096_S8192_d1 h_S_),
    StableHlo.TRef.unary main_call0.call0.v0 main_call0.call0.v1 (broadcastInDim S8192x1 ![0] bcast_S8192_S8192x1_0),
    StableHlo.TRef.nullary main_call0.call0.cst_0 (constant S_ .f32 0x45800000#32),
    StableHlo.TRef.unary main_call0.call0.cst_0 main_call0.call0.v2 (broadcastInDim S8192x1 ![] bcast_S_S8192x1),
    StableHlo.TRef.binary main_call0.call0.v1 main_call0.call0.v2 main_call0.call0.v3 Host.divf,
    StableHlo.TRef.unary main_call0.call0.v3 main_call0.call0.v4 (broadcastInDim S8192x4096 ![0, 1] bcast_S8192x1_S8192x4096_0_1),
    StableHlo.TRef.binary (.of main_arg0) main_call0.call0.v4 main_call0.call0.v5 subf,
    StableHlo.TRef.binary main_call0.call0.v5 main_call0.call0.v5 main_call0.call0.v6 mulf,
    StableHlo.TRef.unary (.of main_c) main_call0.call0.v7 (sitofp .f32),
    StableHlo.TRef.nullary main_call0.call0.cst_1 (constant S_ .f32 0x45800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S8192x4096_S8192_d1 h_S_),
    StableHlo.TRef.unary main_call0.call0.v9 main_call0.call0.v10 (broadcastInDim S8192x1 ![0] bcast_S8192_S8192x1_0),
    StableHlo.TRef.unary main_call0.call0.v8 main_call0.call0.v11 (broadcastInDim S8192x1 ![] bcast_S_S8192x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S8192x1 ![] bcast_S_S8192x1),
    StableHlo.TRef.ternary main_call0.call0.v13 main_call0.call0.v12 main_call0.call0.call0.v1 main_call0.call0.call0.v2 (fun p a b => select (broadcastInDim S8192x1 ![] bcast_S_S8192x1 p) a b),
    StableHlo.TRef.unary main_call0.call0.call0.v2 main_call0.v1 Host.sqrt,
    StableHlo.unary main_v23 main_v25 (broadcastInDim S8192x4096 ![0, 1] bcast_S8192x1_S8192x4096_0_1 : (⟨S8192x1, .f32⟩ : BufTy).Contents (Elt F) → (⟨S8192x4096, .f32⟩ : BufTy).Contents (Elt F)),
    StableHlo.binary main_arg0 main_v25 main_v26 (subf : (⟨S8192x4096, .f32⟩ : BufTy).Contents (Elt F) → (⟨S8192x4096, .f32⟩ : BufTy).Contents (Elt F) → (⟨S8192x4096, .f32⟩ : BufTy).Contents (Elt F)),
    StableHlo.nullary main_cst_7 (constant S_ .f32 0x358637BD#32),
    StableHlo.unary main_cst_7 main_v27 (broadcastInDim S8192x1 ![] bcast_S_S8192x1 : (⟨S_, .f32⟩ : BufTy).Contents (Elt F) → (⟨S8192x1, .f32⟩ : BufTy).Contents (Elt F)),
    StableHlo.binary main_v24 main_v27 main_v28 (addf : (⟨S8192x1, .f32⟩ : BufTy).Contents (Elt F) → (⟨S8192x1, .f32⟩ : BufTy).Contents (Elt F) → (⟨S8192x1, .f32⟩ : BufTy).Contents (Elt F)),
    StableHlo.unary main_v28 main_v29 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v26 main_v29 main_v30 (Host.divf : (⟨S8192x4096, .f32⟩ : BufTy).Contents (Elt F) → (⟨S8192x4096, .f32⟩ : BufTy).Contents (Elt F) → (⟨S8192x4096, .f32⟩ : BufTy).Contents (Elt F)),
    StableHlo.nullary main_cst_8 (constant S_ .f32 0x00000000#32),
    StableHlo.binary main_arg1 main_cst_8 main_v31 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v31 main_v32 (broadcastInDim S8192x1 ![0] bcast_S8192_S8192x1_0 : (⟨S8192, .f32⟩ : BufTy).Contents (Elt F) → (⟨S8192x1, .f32⟩ : BufTy).Contents (Elt F)),
    StableHlo.nullary main_cst_9 (constant S_ .f32 0x45800000#32),
    StableHlo.unary main_cst_9 main_v33 (broadcastInDim S8192x1 ![] bcast_S_S8192x1 : (⟨S_, .f32⟩ : BufTy).Contents (Elt F) → (⟨S8192x1, .f32⟩ : BufTy).Contents (Elt F)),
    StableHlo.binary main_v32 main_v33 main_v34 (Host.divf : (⟨S8192x1, .f32⟩ : BufTy).Contents (Elt F) → (⟨S8192x1, .f32⟩ : BufTy).Contents (Elt F) → (⟨S8192x1, .f32⟩ : BufTy).Contents (Elt F)),
    StableHlo.nullary main_c_10 (constantI S_ 32 1#32),
    StableHlo.TRef.nullary main_call1.call0.cst (constant S_ .f32 0x00000000#32),
    StableHlo.TRef.binary (.of main_arg1) main_call1.call0.cst main_call1.call0.v0 (fun x v => Host.reduceAdd x v reducesTo_S8192x4096_S8192_d1 h_S_),
    StableHlo.TRef.unary main_call1.call0.v0 main_call1.call0.v1 (broadcastInDim S8192x1 ![0] bcast_S8192_S8192x1_0),
    StableHlo.TRef.nullary main_call1.call0.cst_0 (constant S_ .f32 0x45800000#32),
    StableHlo.TRef.unary main_call1.call0.cst_0 main_call1.call0.v2 (broadcastInDim S8192x1 ![] bcast_S_S8192x1),
    StableHlo.TRef.binary main_call1.call0.v1 main_call1.call0.v2 main_call1.call0.v3 Host.divf,
    StableHlo.TRef.unary main_call1.call0.v3 main_call1.call0.v4 (broadcastInDim S8192x4096 ![0, 1] bcast_S8192x1_S8192x4096_0_1),
    StableHlo.TRef.binary (.of main_arg1) main_call1.call0.v4 main_call1.call0.v5 subf,
    StableHlo.TRef.binary main_call1.call0.v5 main_call1.call0.v5 main_call1.call0.v6 mulf,
    StableHlo.TRef.unary (.of main_c_10) main_call1.call0.v7 (sitofp .f32),
    StableHlo.TRef.nullary main_call1.call0.cst_1 (constant S_ .f32 0x45800000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S8192x4096_S8192_d1 h_S_),
    StableHlo.TRef.unary main_call1.call0.v9 main_call1.call0.v10 (broadcastInDim S8192x1 ![0] bcast_S8192_S8192x1_0),
    StableHlo.TRef.unary main_call1.call0.v8 main_call1.call0.v11 (broadcastInDim S8192x1 ![] bcast_S_S8192x1),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S8192x1 ![] bcast_S_S8192x1),
    StableHlo.TRef.ternary main_call1.call0.v13 main_call1.call0.v12 main_call1.call0.call0.v1 main_call1.call0.call0.v2 (fun p a b => select (broadcastInDim S8192x1 ![] bcast_S_S8192x1 p) a b),
    StableHlo.TRef.unary main_call1.call0.call0.v2 main_call1.v1 Host.sqrt,
    StableHlo.unary main_v34 main_v36 (broadcastInDim S8192x4096 ![0, 1] bcast_S8192x1_S8192x4096_0_1 : (⟨S8192x1, .f32⟩ : BufTy).Contents (Elt F) → (⟨S8192x4096, .f32⟩ : BufTy).Contents (Elt F)),
    StableHlo.binary main_arg1 main_v36 main_v37 (subf : (⟨S8192x4096, .f32⟩ : BufTy).Contents (Elt F) → (⟨S8192x4096, .f32⟩ : BufTy).Contents (Elt F) → (⟨S8192x4096, .f32⟩ : BufTy).Contents (Elt F)),
    StableHlo.nullary main_cst_11 (constant S_ .f32 0x358637BD#32),
    StableHlo.unary main_cst_11 main_v38 (broadcastInDim S8192x1 ![] bcast_S_S8192x1 : (⟨S_, .f32⟩ : BufTy).Contents (Elt F) → (⟨S8192x1, .f32⟩ : BufTy).Contents (Elt F)),
    StableHlo.binary main_v35 main_v38 main_v39 (addf : (⟨S8192x1, .f32⟩ : BufTy).Contents (Elt F) → (⟨S8192x1, .f32⟩ : BufTy).Contents (Elt F) → (⟨S8192x1, .f32⟩ : BufTy).Contents (Elt F)),
    StableHlo.unary main_v39 main_v40 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v37 main_v40 main_v41 (Host.divf : (⟨S8192x4096, .f32⟩ : BufTy).Contents (Elt F) → (⟨S8192x4096, .f32⟩ : BufTy).Contents (Elt F) → (⟨S8192x4096, .f32⟩ : BufTy).Contents (Elt F)),
    StableHlo.binary main_v30 main_v41 main_v42 (mulf : (⟨S8192x4096, .f32⟩ : BufTy).Contents (Elt F) → (⟨S8192x4096, .f32⟩ : BufTy).Contents (Elt F) → (⟨S8192x4096, .f32⟩ : BufTy).Contents (Elt F)),
    StableHlo.nullary main_cst_12 (constant S_ .f32 0x00000000#32),
    StableHlo.binary main_v42 main_cst_12 main_v43 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.nullary main_cst_13 (constant S_ .f32 0x45800000#32),
    StableHlo.unary main_cst_13 main_v44 (broadcastInDim S8192 ![] bcast_S_S8192 : (⟨S_, .f32⟩ : BufTy).Contents (Elt F) → (⟨S8192, .f32⟩ : BufTy).Contents (Elt F)),
    StableHlo.binary main_v43 main_v44 main_v45 (Host.divf : (⟨S8192, .f32⟩ : BufTy).Contents (Elt F) → (⟨S8192, .f32⟩ : BufTy).Contents (Elt F) → (⟨S8192, .f32⟩ : BufTy).Contents (Elt F)),
    StableHlo.nullary main_cst_14 (constant S_ .f32 0x3F800000#32),
    StableHlo.unary main_cst_14 main_v46 (broadcastInDim S8192 ![] bcast_S_S8192 : (⟨S_, .f32⟩ : BufTy).Contents (Elt F) → (⟨S8192, .f32⟩ : BufTy).Contents (Elt F)),
    StableHlo.binary main_v46 main_v45 main_v47 (subf : (⟨S8192, .f32⟩ : BufTy).Contents (Elt F) → (⟨S8192, .f32⟩ : BufTy).Contents (Elt F) → (⟨S8192, .f32⟩ : BufTy).Contents (Elt F)),
    StableHlo.nullary main_cst_15 (constant S_ .f32 0x40000000#32),
    StableHlo.unary main_cst_15 main_v48 (broadcastInDim S8192 ![] bcast_S_S8192 : (⟨S_, .f32⟩ : BufTy).Contents (Elt F) → (⟨S8192, .f32⟩ : BufTy).Contents (Elt F)),
    StableHlo.binary main_v47 main_v48 main_v49 (Host.divf : (⟨S8192, .f32⟩ : BufTy).Contents (Elt F) → (⟨S8192, .f32⟩ : BufTy).Contents (Elt F) → (⟨S8192, .f32⟩ : BufTy).Contents (Elt F)),
    StableHlo.nullary main_cst_16 (constant S_ .f32 0x00000000#32),
    StableHlo.binary main_v49 main_cst_16 main_v50 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_17 (constant S_ .f32 0x46000000#32),
    StableHlo.binary main_v50 main_cst_17 main_v51 (Host.divf : (⟨S_, .f32⟩ : BufTy).Contents (Elt F) → (⟨S_, .f32⟩ : BufTy).Contents (Elt F) → (⟨S_, .f32⟩ : BufTy).Contents (Elt F)),
    StableHlo.binary main_v19 main_v51 main_v52 (addf : (⟨S_, .f32⟩ : BufTy).Contents (Elt F) → (⟨S_, .f32⟩ : BufTy).Contents (Elt F) → (⟨S_, .f32⟩ : BufTy).Contents (Elt F)),
    StableHlo.nullary main_cst_18 (constant S_ .f32 0x40000000#32),
    StableHlo.binary main_v52 main_cst_18 main_v53 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x3F000000#32),
    StableHlo.binary main_cst_19 main_v3 main_v54 (mulf : (⟨S_, .f32⟩ : BufTy).Contents (Elt F) → (⟨S_, .f32⟩ : BufTy).Contents (Elt F) → (⟨S_, .f32⟩ : BufTy).Contents (Elt F)),
    StableHlo.nullary main_cst_20 (constant S_ .f32 0x3F000000#32),
    StableHlo.binary main_cst_20 main_v53 main_v55 (mulf : (⟨S_, .f32⟩ : BufTy).Contents (Elt F) → (⟨S_, .f32⟩ : BufTy).Contents (Elt F) → (⟨S_, .f32⟩ : BufTy).Contents (Elt F)),
    StableHlo.binary main_v54 main_v55 main_v56 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is that straight line: its two windows and the three functions' bodies unfold, at the calls'
    buffer records, to one chain of operations ending in the return. -/
theorem main_eq (c : Dev nD) : main (F := F) c = seq ops := rfl

/-- The signature scopes no buffer and no semaphore: every value of the program is a whole tensor in device memory. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨binary_bufs_sub .., binary_bufs_sub .., nullary_bufs_sub .., binary_bufs_sub .., nullary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., unary_bufs_sub .., nullary_bufs_sub .., binary_bufs_sub .., nullary_bufs_sub .., binary_bufs_sub ..,
    nullary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., nullary_bufs_sub .., binary_bufs_sub .., binary_bufs_sub .., nullary_bufs_sub ..,
    binary_bufs_sub .., nullary_bufs_sub .., binary_bufs_sub .., nullary_bufs_sub .., binary_bufs_sub .., binary_bufs_sub ..⟩

section Value
variable [Cert.KernelIdeal.Facts]

set_option maxRecDepth 8192 in
set_option maxHeartbeats 50000000 in
/-- The fold of the operations read at the result buffer: each operation's result at its own buffer is its function
    of its operands' contents, and at any other buffer what was there; composed from the last operation back to the
    arguments this is the reference's term — ½·(X / 2²⁵) + ½·(((1 − Y / (8192·4095)) + (∑ᵣ (1 − corrᵣ)/2) / 8192) / 2)
    with X the total squared error, Y the count of agreeing steps and corrᵣ the lane mean of the product of the two
    row-normalised arrays, each row normalised by its mean (computed once by the program's own lines) and by its
    standard deviation plus ε (the mean computed again inside the called function). -/
theorem v56_eq (V : Valuation τ sig (Elt Ideal)) :
    after (ops (F := Ideal)) V (Proc.devRef .tc main_v56)
      = RTerm (V (Proc.devRef .tc main_arg0)) (V (Proc.devRef .tc main_arg1)) := by
  after_results_simp
  rfl

end Value

set_option maxRecDepth 8192 in
set_option maxHeartbeats 50000000 in
/-- No operation writes the first argument's buffer. -/
theorem arg0_eq (V : Valuation τ sig (Elt F)) :
    after (ops (F := F)) V (Proc.devRef .tc main_arg0) = V (Proc.devRef .tc main_arg0) := by
  after_results_simp

set_option maxRecDepth 8192 in
set_option maxHeartbeats 50000000 in
/-- No operation writes the second argument's buffer. -/
theorem arg1_eq (V : Valuation τ sig (Elt F)) :
    after (ops (F := F)) V (Proc.devRef .tc main_arg1) = V (Proc.devRef .tc main_arg1) := by
  after_results_simp

end Cert.RowStats.RefRun

namespace Cert.RowStats

open Idealize.ShloMosaic Idealize.ShloMosaic.TcCoe Idealize.SL.Sem Idealize.ShloMosaic.StableHlo

set_option maxRecDepth 8192 in
set_option maxHeartbeats 4000000 in
/-- From any memory with zero counters every weakly fair execution of the reference program terminates with its
    result buffer at `RTerm` of the two arguments' launch contents, and the two argument buffers unchanged. -/
theorem ref_run [Cert.KernelIdeal.Facts] [Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v56)
            = RTerm (m ((c.tc : Thread Cert.ReferenceIdeal.nD Cert.ReferenceIdeal.τ).loc Cert.ReferenceIdeal.main_arg0))
                    (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c Cert.ReferenceIdeal.main_v56).trans (RefRun.v56_eq _),
      (h c Cert.ReferenceIdeal.main_arg0).trans (RefRun.arg0_eq _),
      (h c Cert.ReferenceIdeal.main_arg1).trans (RefRun.arg1_eq _)⟩)
    (run_seq RefRun.scopedRefs_eq RefRun.scopedSems_eq Cert.ReferenceIdeal.defs Cert.ReferenceIdeal.main
      (fun _ => RefRun.ops) RefRun.main_eq (fun _ => RefRun.ops_sub) m g)

/-- The same run with the result dropped: the two argument buffers end as they started. -/
theorem ref_frame [Cert.KernelIdeal.Facts] [Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono (fun _ h c => (h c).2) (ref_run m g)

end Cert.RowStats

end
-- ==== Proof.SqErr.lean ====
/-
  The total squared error: the kernel's sum over the rows of Spp + Stt − 2·Spt is the reference's sum of
  (p − t)·(p − t) over both axes.

  Per row r, with real entries, ∑ₖ (pₖ − tₖ)² = ∑ₖ pₖ² + ∑ₖ tₖ² − 2·∑ₖ pₖ·tₖ; summing over the rows gives the
  identity. Finiteness is needed: over the extended reals subtraction and distributivity fail at the infinities, so
  the entries are first written as coercions of reals and the algebra is done in ℝ.
-/
import proofs.«171406_j30451318129051_2_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

open Idealize.ShloMosaic Idealize.ShloMosaic.ValueIdx Cert.RowStats
open scoped BigOperators

namespace Cert.RowStats

namespace SqErr

/-! ## Sums over a rank-1 index set, and coercions of real sums -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two constants -/

/-- The word 0x40000000 is the real 2. -/
theorem ofBits_two : Ideal.ofBits .f32 0x40000000#32 = ((2 : ℝ) : EReal) := by
  simp [Ideal.ofBits, Ideal.ieee, -EReal.coe_mul]; norm_num

/-! ## The algebra, over real entries -/

/-- One row: ∑ x² + ∑ y² − 2·∑ x·y = ∑ (x − y)·(x − y), the entries real. -/
theorem row_sq {m : Nat} (x y : Fin m → ℝ) :
    (∑ k, (x k : EReal) * (x k : EReal)) + (∑ k, (y k : EReal) * (y k : EReal))
        - ((2 : ℝ) : EReal) * (∑ k, (x k : EReal) * (y k : EReal))
      = ∑ k, ((x k : EReal) - (y k : EReal)) * ((x k : EReal) - (y k : EReal)) := by
  simp only [← EReal.coe_mul, ← EReal.coe_sub, ← coe_sum, ← EReal.coe_add]
  congr 1
  rw [Finset.mul_sum, ← Finset.sum_add_distrib, ← Finset.sum_sub_distrib]
  exact Finset.sum_congr rfl fun k _ => by ring

/-! ## The kernel's arrays read at an index -/

section Kernel
variable [Cert.KernelIdeal.Facts]
open Cert.KernelIdeal Cert.KernelIdeal.Facts₀

/-- Column c of the statistics, as a vector over the rows, reads row r at (r, c). -/
theorem kcol_apply (s : FVec Ideal S8192x8 .f32) (off : Fin 2 → Nat) (h : S8192x8.Slices off S8192x1)
    (c : Fin 8) (h0 : off 0 = 0) (h1 : off 1 = c.val) (r : Fin 8192) :
    kcol s off h (ix1 r) = s (ix2 r c) := by
  unfold kcol
  refine (shapeCast_apply _ _ (ix1 r) (ix2 r (⟨0, Nat.one_pos⟩ : Fin 1))
    (by rw [Shape.rowMajor_val_two, Shape.rowMajor_val_one]
        show r.val * 1 + 0 = r.val
        omega)).trans ?_
  exact extractStridedSlice_apply off s h _ (ix2 r c)
    (fun a => match a with
      | ⟨0, _⟩ => by show r.val = off 0 + r.val; omega
      | ⟨1, _⟩ => by show c.val = off 1 + 0; omega)

/-- A splat word reads its value at every row. -/
theorem splat_apply (w : BitVec 32) (i : S8192.Idx) : splat w i = Ideal.ofBits .f32 w := by
  unfold splat
  rw [broadcastInDim_scalar_apply]
  rfl

/-- The kernel's total: 0 plus the sum over the rows of Spp + Stt − 2·Spt. -/
theorem kX_apply (p t : FVec Ideal S8192x4096 .f32) (j : S_.Idx) :
    kX (KStats p t) j = Ideal.ofBits .f32 0x00000000#32
      + ∑ r : Fin 8192, ((∑ k : Fin 4096, p (ix2 r k) * p (ix2 r k)) + (∑ k : Fin 4096, t (ix2 r k) * t (ix2 r k))
          - Ideal.ofBits .f32 0x40000000#32 * (∑ k : Fin 4096, p (ix2 r k) * t (ix2 r k))) := by
  unfold kX
  rw [hostReduceAdd_apply, Ideal.hostReduceAdd_total _ (fun b => b.elim0), sum_idx1]
  congr 1
  refine Finset.sum_congr rfl fun r _ => ?_
  rw [subf_apply, addf_apply, mulf_apply, splat_apply,
    kcol_apply _ _ _ (⟨2, by omega⟩ : Fin 8) rfl rfl, kcol_apply _ _ _ (⟨3, by omega⟩ : Fin 8) rfl rfl,
    kcol_apply _ _ _ (⟨4, by omega⟩ : Fin 8) rfl rfl]
  rfl

end Kernel

/-! ## The reference's total -/

section Reference
variable [Cert.ReferenceIdeal.Facts]
open Cert.ReferenceIdeal Cert.ReferenceIdeal.Facts₀

/-- The reference's total: 0 plus the double sum of (p − t)·(p − t). -/
theorem rX_apply (p t : FVec Ideal S8192x4096 .f32) (j : S_.Idx) :
    rX p t j = Ideal.ofBits .f32 0x00000000#32
      + ∑ r : Fin 8192, ∑ k : Fin 4096, (p (ix2 r k) - t (ix2 r k)) * (p (ix2 r k) - t (ix2 r k)) := by
  unfold rX
  rw [hostReduceAdd_apply, Ideal.hostReduceAdd_total _ (fun b => b.elim0), sum_idx2]
  rfl

end Reference

end SqErr

/-! ## The identity -/

open SqErr in
/-- The kernel's total squared error from the statistics is the reference's, the inputs' entries real. -/
theorem sqErr_eq [Cert.KernelIdeal.Facts] [Cert.ReferenceIdeal.Facts]
    (p t : FVec Ideal Cert.KernelIdeal.S8192x4096 .f32) (hp : Finite p) (ht : Finite t) :
    kX (KStats p t) = rX p t := by
  funext j
  choose P hP using hp
  choose T hT using ht
  rw [kX_apply, rX_apply, ofBits_two]
  congr 1
  refine Finset.sum_congr rfl fun r _ => ?_
  simp only [hP, hT]
  exact row_sq (fun k => P (ix2 r k)) (fun k => T (ix2 r k))

end Cert.RowStats

end
-- ==== Proof.Agree.lean ====
/-
  The agreement count: the kernel's sum over the rows of the per-row counts equals the reference's sum over
  both axes of the sign comparison of the first differences.
-/
import proofs.«171406_j30451318129051_2_alg».proof.Proof.Spec
import Idealize.ShloMosaic.PureOps.Ideal.Laws
import Idealize.ShloMosaic.Lib.ValueLayout
import Idealize.ShloMosaic.Lib.Pipeline.Value

noncomputable section

open Idealize.ShloMosaic Idealize.ShloMosaic.ValueIdx Cert.RowStats
open scoped BigOperators

namespace Cert.RowStats

namespace Agree

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The sign comparison on real steps -/

/-- Over real steps a, b: the signs agree or b's sign is 0 exactly when a·b > 0 or b = 0. -/
theorem sign_agree_iff (a b : ℝ) :
    ((SignType.sign a : ℝ) = (SignType.sign b : ℝ) ∨ (SignType.sign b : ℝ) = 0) ↔ (0 < a * b ∨ b = 0) := by
  rcases lt_trichotomy b 0 with hb | hb | hb
  · rcases lt_trichotomy a 0 with ha | ha | ha
    · have : 0 < a * b := mul_pos_of_neg_of_neg ha hb
      simp [sign_neg ha, sign_neg hb, this]
    · subst ha
      simp [sign_neg hb, hb.ne]
    · have : ¬ 0 < a * b := not_lt.mpr (mul_nonpos_of_nonneg_of_nonpos ha.le hb.le)
      simp [sign_pos ha, sign_neg hb, this, hb.ne]
      norm_num
  · subst hb; simp
  · rcases lt_trichotomy a 0 with ha | ha | ha
    · have : ¬ 0 < a * b := not_lt.mpr (mul_nonpos_of_nonpos_of_nonneg ha.le hb.le)
      simp [sign_neg ha, sign_pos hb, this, hb.ne']
      norm_num
    · subst ha
      simp [sign_pos hb, hb.ne']
    · have : 0 < a * b := mul_pos ha hb
      simp [sign_pos ha, sign_pos hb, this]

/-! ## One lane's indicator, on both sides -/

/-- The reference's indicator at real steps a, b — the two i1 comparison words or-ed and read as a float — is 1
    when a·b > 0 or b = 0, else 0. -/
theorem ref_indicator (a b : ℝ) :
    (FloatOps.uitofp (F := Ideal) .f32
        (IntOp.ori (FloatOps.cmpf (F := Ideal) (φ := .f32) .oeq (Ideal.sign (a : EReal)) (Ideal.sign (b : EReal)))
          (FloatOps.cmpf (F := Ideal) (φ := .f32) .oeq (Ideal.sign (b : EReal)) (0 : EReal))) : EReal)
      = if 0 < ((a : EReal) * (b : EReal)) ∨ (b : EReal) = 0 then 1 else 0 := by
  rw [Ideal.cmpf_def, Ideal.cmpf_def, Ideal.sign_coe, Ideal.sign_coe]
  have hword : ∀ (P Q : Prop) [Decidable P] [Decidable Q],
      (IntOp.ori (BitVec.ofBool (decide P)) (BitVec.ofBool (decide Q))).toNat = if P ∨ Q then 1 else 0 := by
    intro P Q _ _
    by_cases hP : P <;> by_cases hQ : Q <;> simp [IntOp.ori, hP, hQ]
  have hu : ∀ w : BitVec 1, (FloatOps.uitofp (F := Ideal) .f32 w : EReal) = ((w.toNat : ℝ) : EReal) := fun _ => rfl
  rw [hu]
  show (((IntOp.ori (BitVec.ofBool (decide (_ = _))) (BitVec.ofBool (decide (_ = _)))).toNat : ℝ) : EReal) = _
  rw [hword]
  have e1 : ((((SignType.sign a : ℝ) : EReal) = ((SignType.sign b : ℝ) : EReal)) ∨ ((SignType.sign b : ℝ) : EReal) = 0)
      ↔ (0 < (a : EReal) * (b : EReal) ∨ (b : EReal) = 0) := by
    rw [EReal.coe_eq_coe_iff, EReal.coe_eq_zero, ← EReal.coe_mul, EReal.coe_pos, EReal.coe_eq_zero]
    exact sign_agree_iff a b
  by_cases h : 0 < (a : EReal) * (b : EReal) ∨ (b : EReal) = 0
  · rw [if_pos h, if_pos (e1.mpr h)]; simp
  · rw [if_neg h, if_neg (mt e1.mp h)]; simp

/-- A row's count over the 4096 lanes, the wrapped last lane counting 0, is the sum over the 4095 steps. -/
theorem sum_agreeAt (x y : Fin 4096 → EReal) :
    ∑ k, agreeAt x y k
      = ∑ k' : Fin 4095,
          (if 0 < (x k'.succ - x k'.castSucc) * (y k'.succ - y k'.castSucc) ∨ y k'.succ - y k'.castSucc = 0
            then (1 : EReal) else 0) := by
  have hlast : agreeAt x y (Fin.last 4095) = 0 := by
    unfold agreeAt
    rw [if_neg]
    rw [Fin.val_last]; exact lt_irrefl _
  rw [show (∑ k, agreeAt x y k) = ∑ k : Fin (4095 + 1), agreeAt x y k from rfl, Fin.sum_univ_castSucc, hlast, add_zero]
  refine Finset.sum_congr rfl (fun k' _ => ?_)
  unfold agreeAt
  rw [if_pos (by rw [Fin.coe_castSucc]; exact k'.isLt), Fin.coeSucc_eq_succ]

/-! ## The kernel's count as a double sum -/

section Kernel
variable [Cert.KernelIdeal.Facts]
open Cert.KernelIdeal Cert.KernelIdeal.Facts₀

/-- Column 5 of the statistics read at row r. -/
theorem kcol5_apply (s : FVec Ideal S8192x8 .f32) (r : Fin 8192) :
    kcol s ![0, 5] slices_S8192x8_S8192x1_0_5 (ix1 r) = s (ix2 r (5 : Fin 8)) := by
  unfold kcol
  rw [shapeCast_apply _ _ (ix1 r) (ix2 r (0 : Fin 1)) (by
    rw [Shape.rowMajor_val_two, Shape.rowMajor_val_one]
    show r.val * 1 + 0 = r.val
    omega)]
  exact slice2_axis1_apply 5 s _ r (0 : Fin 1) (5 : Fin 8) rfl

/-- The kernel's total count: the sum over the rows of the sum over the 4095 steps of the indicator. -/
theorem kY_apply (p t : FVec Ideal S8192x4096 .f32) (j : S_.Idx) :
    kY (KStats p t) j
      = 0 + ∑ r : Fin 8192, ∑ k' : Fin 4095,
          (if 0 < (p (ix2 r k'.succ) - p (ix2 r k'.castSucc)) * (t (ix2 r k'.succ) - t (ix2 r k'.castSucc))
                ∨ t (ix2 r k'.succ) - t (ix2 r k'.castSucc) = 0
            then (1 : EReal) else 0) := by
  unfold kY Host.reduceAdd
  rw [Ideal.hostReduceAdd_def, Ideal.hostReduceAdd_total _ (fun b => b.elim0), constant_apply, Ideal.ofBits_zero_f32,
    sum_idx1]
  congr 1
  refine Finset.sum_congr rfl (fun r _ => ?_)
  rw [kcol5_apply]
  exact sum_agreeAt (fun k => p (ix2 r k)) (fun k => t (ix2 r k))

end Kernel

/-! ## The reference's count as a double sum -/

section Reference
variable [Cert.ReferenceIdeal.Facts]
open Cert.ReferenceIdeal Cert.ReferenceIdeal.Facts₀

/-- The first difference at row r, step k': x (r, k' + 1) − x (r, k'). -/
theorem rStep_apply (x : FVec Ideal S8192x4096 .f32) (r : Fin 8192) (k' : Fin 4095) :
    rStep x (ix2 r k') = x (ix2 r k'.succ) - x (ix2 r k'.castSucc) := by
  unfold rStep
  rw [subf_apply,
    slice2_axis1_apply 1 x _ r k' k'.succ (by rw [Fin.val_succ, add_comm]),
    slice2_axis1_apply 0 x _ r k' k'.castSucc (by rw [Fin.coe_castSucc, zero_add])]

/-- The reference's total count: the sum over rows and steps of the or-ed comparison words read as floats. -/
theorem rY_apply (p t : FVec Ideal S8192x4096 .f32) (j : S_.Idx) :
    rY p t j
      = 0 + ∑ r : Fin 8192, ∑ k' : Fin 4095,
          (FloatOps.uitofp (F := Ideal) .f32
            (IntOp.ori
              (FloatOps.cmpf (F := Ideal) (φ := .f32) .oeq (Ideal.sign (rStep p (ix2 r k'))) (Ideal.sign (rStep t (ix2 r k'))))
              (FloatOps.cmpf (F := Ideal) (φ := .f32) .oeq (Ideal.sign (rStep t (ix2 r k'))) (0 : EReal))) : EReal) := by
  unfold rY Host.reduceAdd
  rw [Ideal.hostReduceAdd_def, Ideal.hostReduceAdd_total _ (fun b => b.elim0), constant_apply, Ideal.ofBits_zero_f32,
    sum_idx2]
  refine congrArg (HAdd.hAdd (0 : EReal)) (Finset.sum_congr rfl fun r _ => Finset.sum_congr rfl fun k' _ => ?_)
  show (FloatOps.uitofp (F := Ideal) .f32
      (IntOp.ori
        (FloatOps.cmpf (F := Ideal) (φ := .f32) .oeq (Ideal.sign (rStep p (ix2 r k'))) (Ideal.sign (rStep t (ix2 r k'))))
        (FloatOps.cmpf (F := Ideal) (φ := .f32) .oeq (Ideal.sign (rStep t (ix2 r k')))
          (Ideal.ofBits .f32 0x00000000#32))) : EReal) = _
  rw [Ideal.ofBits_zero_f32]

end Reference

end Agree

open Agree

/-! ## The two counts agree -/

/-- The kernel's total of the per-row counts is the reference's count over both axes: per row the 4096-lane sum
    with the wrapped lane 0 is the sum over the 4095 steps, and at real steps the two indicators coincide. -/
theorem agree_eq [Cert.KernelIdeal.Facts] [Cert.ReferenceIdeal.Facts]
    (p t : FVec Ideal Cert.KernelIdeal.S8192x4096 .f32) (hp : Finite p) (ht : Finite t) :
    kY (KStats p t) = rY p t := by
  choose a ha using hp
  choose b hb using ht
  funext j
  rw [kY_apply, rY_apply]
  refine congrArg (HAdd.hAdd (0 : EReal)) ?_
  refine Finset.sum_congr rfl (fun r _ => ?_)
  refine Finset.sum_congr rfl (fun k' _ => ?_)
  rw [rStep_apply, rStep_apply, ha, ha, hb, hb, ← EReal.coe_sub, ← EReal.coe_sub, ref_indicator]

end Cert.RowStats

end
-- ==== Proof.Corr.lean ====
/-
  The per-row correlation: the kernel's, from five of a row's statistics, is the reference's, from the row itself.

  Fix a row and write x, y for its 4096 entries of p and of t (real numbers, by finiteness), Sx = ∑x, Sy = ∑y,
  Sxx = ∑x², Syy = ∑y², Sxy = ∑xy, μx = Sx/4096, μy = Sy/4096 and ε > 0 for the real the word 0x358637BD denotes.

    kernel:     (Sxy/4096 − Sx·Sy/4096²) / ((√(max((Sxx − Sx·Sx/4096)/4095, 0)) + ε)·(√(max((Syy − Sy·Sy/4096)/4095, 0)) + ε))
    reference:  (∑ₖ ((xₖ − μx)/(σx + ε))·((yₖ − μy)/(σy + ε))) / 4096,   σx = √(∑ₖ (xₖ − μx)² / (4096 − 1)).

  Over the reals ∑ₖ (xₖ − μx)(yₖ − μy) = Sxy − Sx·Sy/4096; with y = x this is ∑ₖ (xₖ − μx)² = Sxx − Sx·Sx/4096, a sum
  of squares, so the kernel's max(·, 0) is the identity and the two standard deviations agree; σ + ε > 0, so the
  quotients combine, (a/u)·(b/v) = (a·b)/(u·v), and the two sides are one fraction (`corr_real`).

  Both programs' values are read index by index as coercions of real expressions: a quotient of reals by a real that
  is not zero is the real quotient, a square root of a real that is not negative the real square root, a maximum of
  reals the real maximum, a finite sum of reals the real sum. The reference keeps its variance quotient only where
  4096 − 1 > 0, which holds, so the select reads the quotient and never the other operand.
-/
import proofs.«171406_j30451318129051_2_alg».proof.Proof.Spec
import Idealize.ShloMosaic.Lib.IdealHost
import Idealize.ShloMosaic.Lib.Pipeline.Value

noncomputable section

open Idealize.ShloMosaic Idealize.ShloMosaic.ValueIdx Cert.RowStats
open scoped BigOperators

namespace Cert.RowStats.Corr

/-! ## The words as reals -/

/-- 0x45800000 denotes 4096. -/
theorem w4096 : Ideal.ofBits .f32 0x45800000#32 = ((4096 : ℝ) : EReal) := by
  simp [Ideal.ofBits, Ideal.ieee, -EReal.coe_mul]; norm_num

/-- 0x457FF000 denotes 4095. -/
theorem w4095 : Ideal.ofBits .f32 0x457FF000#32 = ((4095 : ℝ) : EReal) := by
  simp [Ideal.ofBits, Ideal.ieee, -EReal.coe_mul]; norm_num

/-- 0x4B800000 denotes 4096² = 16777216. -/
theorem w4096sq : Ideal.ofBits .f32 0x4B800000#32 = ((16777216 : ℝ) : EReal) := by
  simp [Ideal.ofBits, Ideal.ieee, -EReal.coe_mul]; norm_num

/-- 0x358637BD denotes 8796093 / 2⁴³. -/
theorem weps : Ideal.ofBits .f32 0x358637BD#32 = (((8796093 : ℝ) / 2 ^ 43 : ℝ) : EReal) := by
  simp [Ideal.ofBits, Ideal.ieee, -EReal.coe_mul]; norm_num

/-- The real ε both programs add to a standard deviation. -/
def epsR : ℝ := 8796093 / 2 ^ 43

/-- ε is positive. -/
theorem epsR_pos : 0 < epsR := by unfold epsR; positivity

/-- 0x358637BD denotes ε. -/
theorem weps' : Ideal.ofBits .f32 0x358637BD#32 = (epsR : EReal) := weps

/-! ## Extended reals that are reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The coercion is monotone, so it commutes with the maximum. -/
theorem coe_max (a b : ℝ) : ((max a b : ℝ) : EReal) = max (a : EReal) (b : EReal) :=
  EReal.coe_strictMono.monotone.map_max

/-- The quotient of two reals, the divisor not zero, is the real quotient. -/
theorem div_cc {a b : ℝ} (hb : b ≠ 0) : Ideal.div (a : EReal) (b : EReal) = ((a / b : ℝ) : EReal) := by
  rw [Ideal.div_coe hb, ← EReal.coe_mul, mul_one_div]

/-- The square root of a real that is not negative is the real square root. -/
theorem sqrt_c {a : ℝ} (ha : 0 ≤ a) : Ideal.sqrt (a : EReal) = ((Real.sqrt a : ℝ) : EReal) := by
  rw [Ideal.sqrt_coe, if_neg (not_lt.2 ha)]

/-- The host's square root at an index is the square root of the element. -/
theorem hostSqrt_apply {s : Shape} (x : FVec Ideal s .f32) (i : s.Idx) :
    Host.sqrt (F := Ideal) x i = Ideal.sqrt (x i) := rfl

/-! ## The identity over the reals -/

/-- ∑ₖ (xₖ − a)(yₖ − b) expanded: ∑xy − a·∑y − b·∑x + 4096·a·b. -/
theorem sum_dev_mul_aux (x y : Fin 4096 → ℝ) (a b : ℝ) :
    ∑ k, (x k - a) * (y k - b)
      = (∑ k, x k * y k) - a * (∑ k, y k) - b * (∑ k, x k) + 4096 * (a * b) := by
  have h : ∀ k, (x k - a) * (y k - b) = x k * y k - a * y k - b * x k + a * b := fun k => by ring
  simp only [h, Finset.sum_add_distrib, Finset.sum_sub_distrib, ← Finset.mul_sum, Finset.sum_const,
    Finset.card_univ, Fintype.card_fin, nsmul_eq_mul]
  push_cast; ring

/-- The sum of products of deviations from the means: ∑ₖ (xₖ − μx)(yₖ − μy) = Sxy − Sx·Sy/4096. -/
theorem sum_dev_mul (x y : Fin 4096 → ℝ) :
    ∑ k, (x k - (∑ j, x j) / 4096) * (y k - (∑ j, y j) / 4096)
      = (∑ k, x k * y k) - (∑ k, x k) * (∑ k, y k) / 4096 := by
  rw [sum_dev_mul_aux]; ring

/-- The two programs' formulas for one row's correlation are one real number. -/
theorem corr_real (x y : Fin 4096 → ℝ) (ε : ℝ) (hε : 0 < ε) :
    ((∑ k, x k * y k) / 4096 - (∑ k, x k) * (∑ k, y k) / 16777216)
      / ((Real.sqrt (max (((∑ k, x k * x k) - (∑ k, x k) * (∑ k, x k) / 4096) / 4095) 0) + ε)
        * (Real.sqrt (max (((∑ k, y k * y k) - (∑ k, y k) * (∑ k, y k) / 4096) / 4095) 0) + ε))
    = (∑ k, ((x k - (∑ j, x j) / 4096)
              / (Real.sqrt ((∑ j, (x j - (∑ i, x i) / 4096) * (x j - (∑ i, x i) / 4096)) / 4095) + ε))
          * ((y k - (∑ j, y j) / 4096)
              / (Real.sqrt ((∑ j, (y j - (∑ i, y i) / 4096) * (y j - (∑ i, y i) / 4096)) / 4095) + ε))) / 4096 := by
  have hvx := sum_dev_mul x x
  have hvy := sum_dev_mul y y
  have hvx0 : 0 ≤ ∑ j, (x j - (∑ i, x i) / 4096) * (x j - (∑ i, x i) / 4096) :=
    Finset.sum_nonneg fun _ _ => mul_self_nonneg _
  have hvy0 : 0 ≤ ∑ j, (y j - (∑ i, y i) / 4096) * (y j - (∑ i, y i) / 4096) :=
    Finset.sum_nonneg fun _ _ => mul_self_nonneg _
  rw [← hvx, ← hvy, max_eq_left (div_nonneg hvx0 (by norm_num)), max_eq_left (div_nonneg hvy0 (by norm_num))]
  generalize (∑ j, (x j - (∑ i, x i) / 4096) * (x j - (∑ i, x i) / 4096)) = vx at *
  generalize (∑ j, (y j - (∑ i, y i) / 4096) * (y j - (∑ i, y i) / 4096)) = vy at *
  have hu : 0 < Real.sqrt (vx / 4095) + ε := by positivity
  have hv : 0 < Real.sqrt (vy / 4095) + ε := by positivity
  generalize Real.sqrt (vx / 4095) + ε = u at *
  generalize Real.sqrt (vy / 4095) + ε = v at *
  simp only [div_mul_div_comm]
  rw [← Finset.sum_div, sum_dev_mul]
  field_simp
  ring

/-! ## The kernel's side at a row -/

section Kernel
variable [Cert.KernelIdeal.Facts]
open Cert.KernelIdeal Cert.KernelIdeal.Facts₀

/-- A scalar word spread over the rows reads the word's value at every row. -/
theorem splat_apply (w : BitVec 32) (r : Fin 8192) : splat w (ix1 r) = Ideal.ofBits .f32 w := by
  unfold splat
  rw [broadcastInDim_scalar_apply]
  rfl

/-- Column `c` of an [8192, 8] array, as a vector over the rows, reads the array at (r, c). -/
theorem kcol_apply (s : FVec Ideal S8192x8 .f32) (c : Nat) (hc : c < 8) (h : S8192x8.Slices ![0, c] S8192x1)
    (r : Fin 8192) : kcol s ![0, c] h (ix1 r) = s (ix2 r ⟨c, hc⟩) := by
  unfold kcol
  refine (shapeCast_apply _ _ (ix1 r) (ix2 r (0 : Fin 1)) ?_).trans ?_
  · rw [Shape.rowMajor_val_two, Shape.rowMajor_val_one]
    show r.val * 1 + 0 = r.val
    omega
  · refine extractStridedSlice_apply _ _ _ _ (ix2 r ⟨c, hc⟩) fun a => ?_
    match a with
    | ⟨0, _⟩ => show r.val = 0 + r.val; omega
    | ⟨1, _⟩ => show c = c + 0; omega

/-- The statistics array at row `r`, column `c`. -/
theorem KStats_apply (p t : FVec Ideal S8192x4096 .f32) (r : Fin 8192) (c : Fin 8) :
    KStats p t (ix2 r c) = statsRow (fun k => p (ix2 r k)) (fun k => t (ix2 r k)) c := rfl

variable (p t : FVec Ideal S8192x4096 .f32) (P T : S8192x4096.Idx → ℝ)
  (hP : ∀ i, p i = (P i : EReal)) (hT : ∀ i, t i = (T i : EReal)) (r : Fin 8192)

include hP in
/-- Column 0 at a row: ∑x. -/
theorem col0 : kcol (KStats p t) ![0, 0] slices_S8192x8_S8192x1_0_0 (ix1 r) = ((∑ k, P (ix2 r k) : ℝ) : EReal) := by
  rw [kcol_apply _ 0 (by norm_num), KStats_apply, coe_sum]
  exact Finset.sum_congr rfl fun k _ => hP _

include hT in
/-- Column 1 at a row: ∑y. -/
theorem col1 : kcol (KStats p t) ![0, 1] slices_S8192x8_S8192x1_0_1 (ix1 r) = ((∑ k, T (ix2 r k) : ℝ) : EReal) := by
  rw [kcol_apply _ 1 (by norm_num), KStats_apply, coe_sum]
  exact Finset.sum_congr rfl fun k _ => hT _

include hP in
/-- Column 2 at a row: ∑x². -/
theorem col2 : kcol (KStats p t) ![0, 2] slices_S8192x8_S8192x1_0_2 (ix1 r)
    = ((∑ k, P (ix2 r k) * P (ix2 r k) : ℝ) : EReal) := by
  rw [kcol_apply _ 2 (by norm_num), KStats_apply, coe_sum]
  exact Finset.sum_congr rfl fun k _ => by rw [EReal.coe_mul, ← hP]

include hT in
/-- Column 3 at a row: ∑y². -/
theorem col3 : kcol (KStats p t) ![0, 3] slices_S8192x8_S8192x1_0_3 (ix1 r)
    = ((∑ k, T (ix2 r k) * T (ix2 r k) : ℝ) : EReal) := by
  rw [kcol_apply _ 3 (by norm_num), KStats_apply, coe_sum]
  exact Finset.sum_congr rfl fun k _ => by rw [EReal.coe_mul, ← hT]

include hP hT in
/-- Column 4 at a row: ∑xy. -/
theorem col4 : kcol (KStats p t) ![0, 4] slices_S8192x8_S8192x1_0_4 (ix1 r)
    = ((∑ k, P (ix2 r k) * T (ix2 r k) : ℝ) : EReal) := by
  rw [kcol_apply _ 4 (by norm_num), KStats_apply, coe_sum]
  exact Finset.sum_congr rfl fun k _ => by rw [EReal.coe_mul, ← hP, ← hT]

/-- The kernel's variance at a row whose two sums are the reals `a` (∑x) and `b` (∑x²). -/
theorem kVar_apply (sx sxx : FVec Ideal S8192 .f32) (a b : ℝ) (r : Fin 8192)
    (hx : sx (ix1 r) = (a : EReal)) (hxx : sxx (ix1 r) = (b : EReal)) :
    kVar sx sxx (ix1 r) = ((max ((b - a * a / 4096) / 4095) 0 : ℝ) : EReal) := by
  unfold kVar
  simp only [maximumf_apply, hostDivf_apply, subf_apply, mulf_apply, splat_apply, hx, hxx, w4096, w4095,
    Ideal.ofBits_zero_f32]
  rw [← EReal.coe_mul, div_cc (by norm_num), ← EReal.coe_sub, div_cc (by norm_num), ← EReal.coe_zero, ← coe_max]

include hP hT in
/-- The kernel's correlation at a row, as a real expression in the row's five sums. -/
theorem kCorr_apply :
    kCorr (KStats p t) (ix1 r)
      = ((((∑ k, P (ix2 r k) * T (ix2 r k)) / 4096 - (∑ k, P (ix2 r k)) * (∑ k, T (ix2 r k)) / 16777216)
          / ((Real.sqrt (max (((∑ k, P (ix2 r k) * P (ix2 r k))
                - (∑ k, P (ix2 r k)) * (∑ k, P (ix2 r k)) / 4096) / 4095) 0) + epsR)
            * (Real.sqrt (max (((∑ k, T (ix2 r k) * T (ix2 r k))
                - (∑ k, T (ix2 r k)) * (∑ k, T (ix2 r k)) / 4096) / 4095) 0) + epsR)) : ℝ) : EReal) := by
  unfold kCorr
  simp only [hostDivf_apply, subf_apply, mulf_apply, addf_apply, hostSqrt_apply, splat_apply,
    kVar_apply _ _ _ _ r (col0 p t P hP r) (col2 p t P hP r),
    kVar_apply _ _ _ _ r (col1 p t T hT r) (col3 p t T hT r),
    col0 p t P hP r, col1 p t T hT r, col4 p t P T hP hT r, w4096, w4096sq, weps']
  rw [sqrt_c (le_max_right _ _), sqrt_c (le_max_right _ _)]
  have hu : 0 < Real.sqrt (max (((∑ k, P (ix2 r k) * P (ix2 r k))
      - (∑ k, P (ix2 r k)) * (∑ k, P (ix2 r k)) / 4096) / 4095) 0) + epsR :=
    add_pos_of_nonneg_of_pos (Real.sqrt_nonneg _) epsR_pos
  have hv : 0 < Real.sqrt (max (((∑ k, T (ix2 r k) * T (ix2 r k))
      - (∑ k, T (ix2 r k)) * (∑ k, T (ix2 r k)) / 4096) / 4095) 0) + epsR :=
    add_pos_of_nonneg_of_pos (Real.sqrt_nonneg _) epsR_pos
  rw [div_cc (by norm_num), ← EReal.coe_mul, div_cc (by norm_num), ← EReal.coe_sub, ← EReal.coe_add, ← EReal.coe_add,
    ← EReal.coe_mul, div_cc (mul_pos hu hv).ne']

end Kernel

/-! ## The reference's side at a row -/

section Reference
variable [Cert.ReferenceIdeal.Facts]
open Cert.ReferenceIdeal Cert.ReferenceIdeal.Facts₀

/-- Reducing the lane axis of [8192, 4096] leaves [8192]. -/
theorem red1 : S8192x4096.Reduces [1] S8192 := by decide

/-- Row r with lane k inserted is the index (r, k). -/
theorem lift_red1 (r : Fin 8192) (k : Fin 4096) : red1.lift (ix1 r) k = ix2 r k := by
  funext a
  match a with
  | ⟨0, _⟩ => exact Fin.ext rfl
  | ⟨1, _⟩ => exact Fin.ext rfl

/-- The host's sum along the lanes, at a row whose entries are the reals `f k`. -/
theorem rowSum_apply (x : FVec Ideal S8192x4096 .f32) (r : Fin 8192) (f : Fin 4096 → ℝ)
    (hf : ∀ k, x (ix2 r k) = (f k : EReal)) :
    Host.reduceAdd (F := Ideal) x (constant (F := Ideal) S_ .f32 0x00000000#32) reducesTo_S8192x4096_S8192_d1 h_S_ (ix1 r)
      = ((∑ k, f k : ℝ) : EReal) := by
  rw [hostReduceAdd_apply, Ideal.hostReduceAdd_single _ red1, constant_apply, Ideal.ofBits_zero_f32, zero_add, coe_sum]
  show ∑ k : Fin 4096, x (red1.lift (ix1 r) k) = _
  exact Finset.sum_congr rfl fun k _ => by rw [lift_red1, hf]

/-- A vector over the rows laid as a column reads the vector at the row. -/
theorem bcast_row_apply {α : Type} (v : S8192.Idx → α) (r : Fin 8192) :
    broadcastInDim S8192x1 ![0] bcast_S8192_S8192x1_0 v (ix2 r (0 : Fin 1)) = v (ix1 r) := by
  refine broadcastInDim_apply _ _ _ _ (ix1 r) fun a => ?_
  match a with
  | ⟨0, _⟩ => show r.val = if (8192 : Nat) = 1 then 0 else r.val; rw [if_neg (by norm_num)]

/-- A column laid along the 4096 lanes reads the column at the row. -/
theorem bcast_col_apply {α : Type} (c : S8192x1.Idx → α) (r : Fin 8192) (k : Fin 4096) :
    broadcastInDim S8192x4096 ![0, 1] bcast_S8192x1_S8192x4096_0_1 c (ix2 r k) = c (ix2 r (0 : Fin 1)) := by
  refine broadcastInDim_apply _ _ _ _ (ix2 r (0 : Fin 1)) fun a => ?_
  match a with
  | ⟨0, _⟩ => show r.val = if (8192 : Nat) = 1 then 0 else r.val; rw [if_neg (by norm_num)]
  | ⟨1, _⟩ => show 0 = if (1 : Nat) = 1 then 0 else k.val; rw [if_pos rfl]

variable (x : FVec Ideal S8192x4096 .f32) (X : S8192x4096.Idx → ℝ) (hX : ∀ i, x i = (X i : EReal)) (r : Fin 8192)

include hX in
/-- The row mean: the row's sum over 4096. -/
theorem rowMean_apply : rowMean x (ix2 r (0 : Fin 1)) = (((∑ k, X (ix2 r k)) / 4096 : ℝ) : EReal) := by
  unfold rowMean
  rw [hostDivf_apply, bcast_row_apply, broadcastInDim_scalar_apply, constant_apply, w4096,
    rowSum_apply x r (fun k => X (ix2 r k)) (fun k => hX _), div_cc (by norm_num)]

include hX in
/-- The deviation from the row mean at a lane. -/
theorem dev_apply (k : Fin 4096) :
    subf x (broadcastInDim S8192x4096 ![0, 1] bcast_S8192x1_S8192x4096_0_1 (rowMean x)) (ix2 r k)
      = ((X (ix2 r k) - (∑ j, X (ix2 r j)) / 4096 : ℝ) : EReal) := by
  rw [subf_apply, bcast_col_apply, rowMean_apply x X hX r, hX, ← EReal.coe_sub]

/-- The degrees of freedom: 4096 less the word 1 converted, the real 4095. -/
theorem dof_val : subf (constant (F := Ideal) S_ .f32 0x45800000#32) (sitofp (F := Ideal) .f32 (constantI S_ 32 1#32)) ix0
    = ((4095 : ℝ) : EReal) := by
  rw [subf_apply, constant_apply, w4096]
  show ((4096 : ℝ) : EReal) - ((((1#32 : BitVec 32).toInt : ℝ)) : EReal) = _
  rw [show (1#32 : BitVec 32).toInt = 1 by decide, ← EReal.coe_sub]
  norm_num

include hX in
/-- The row standard deviation with one degree of freedom removed. -/
theorem rowStd_apply :
    rowStd x (constantI S_ 32 1#32) (ix2 r (0 : Fin 1))
      = ((Real.sqrt ((∑ j, (X (ix2 r j) - (∑ i, X (ix2 r i)) / 4096) * (X (ix2 r j) - (∑ i, X (ix2 r i)) / 4096)) / 4095) : ℝ) : EReal) := by
  unfold rowStd
  dsimp only
  rw [hostSqrt_apply, select_apply, broadcastInDim_scalar_apply, cmpf_apply, dof_val, constant_apply,
    Ideal.ofBits_zero_f32]
  have hc : FloatOps.cmpf (F := Ideal) (φ := .f32) .ogt ((4095 : ℝ) : EReal) 0 = 1#1 := by
    show BitVec.ofBool (decide ((0 : EReal) < ((4095 : ℝ) : EReal))) = 1#1
    rw [decide_eq_true (by exact_mod_cast (by norm_num : (0 : ℝ) < 4095))]
    rfl
  rw [hc, select_one, hostDivf_apply, bcast_row_apply, broadcastInDim_scalar_apply, dof_val,
    rowSum_apply _ r (fun j => (X (ix2 r j) - (∑ i, X (ix2 r i)) / 4096) * (X (ix2 r j) - (∑ i, X (ix2 r i)) / 4096))
      (fun j => by rw [mulf_apply, dev_apply x X hX r j, ← EReal.coe_mul]),
    div_cc (by norm_num),
    sqrt_c (div_nonneg (Finset.sum_nonneg fun _ _ => mul_self_nonneg _) (by norm_num))]

include hX in
/-- The row-normalised array at a lane: the deviation over the ε-shifted standard deviation. -/
theorem rowNorm_apply (k : Fin 4096) :
    rowNorm x (ix2 r k)
      = (((X (ix2 r k) - (∑ j, X (ix2 r j)) / 4096)
          / (Real.sqrt ((∑ j, (X (ix2 r j) - (∑ i, X (ix2 r i)) / 4096) * (X (ix2 r j) - (∑ i, X (ix2 r i)) / 4096)) / 4095)
              + epsR) : ℝ) : EReal) := by
  unfold rowNorm
  rw [hostDivf_apply, dev_apply x X hX r k, bcast_col_apply, addf_apply, rowStd_apply x X hX r,
    broadcastInDim_scalar_apply, constant_apply, weps', ← EReal.coe_add,
    div_cc (add_pos_of_nonneg_of_pos (Real.sqrt_nonneg _) epsR_pos).ne']

variable (p t : FVec Ideal S8192x4096 .f32) (P T : S8192x4096.Idx → ℝ)
  (hP : ∀ i, p i = (P i : EReal)) (hT : ∀ i, t i = (T i : EReal))

include hP hT in
/-- The reference's correlation at a row. -/
theorem rCorr_apply :
    rCorr p t (ix1 r)
      = (((∑ k, ((P (ix2 r k) - (∑ j, P (ix2 r j)) / 4096)
              / (Real.sqrt ((∑ j, (P (ix2 r j) - (∑ i, P (ix2 r i)) / 4096) * (P (ix2 r j) - (∑ i, P (ix2 r i)) / 4096)) / 4095)
                  + epsR))
            * ((T (ix2 r k) - (∑ j, T (ix2 r j)) / 4096)
              / (Real.sqrt ((∑ j, (T (ix2 r j) - (∑ i, T (ix2 r i)) / 4096) * (T (ix2 r j) - (∑ i, T (ix2 r i)) / 4096)) / 4095)
                  + epsR))) / 4096 : ℝ) : EReal) := by
  unfold rCorr
  rw [hostDivf_apply, broadcastInDim_scalar_apply, constant_apply, w4096,
    rowSum_apply _ r _ (fun k => by rw [mulf_apply, rowNorm_apply p P hP r k, rowNorm_apply t T hT r k, ← EReal.coe_mul]),
    div_cc (by norm_num)]

end Reference

end Cert.RowStats.Corr

namespace Cert.RowStats

open Corr in
/-- The kernel's per-row correlation, computed from the row statistics, is the reference's. -/
theorem corr_eq [Cert.KernelIdeal.Facts] [Cert.ReferenceIdeal.Facts]
    (p t : FVec Ideal Cert.KernelIdeal.S8192x4096 .f32) (hp : Finite p) (ht : Finite t) :
    kCorr (KStats p t) = rCorr p t := by
  choose P hP using (hp : ∀ i, ∃ a : ℝ, p i = (a : EReal))
  choose T hT using (ht : ∀ i, ∃ a : ℝ, t i = (a : EReal))
  funext j
  obtain ⟨r, rfl⟩ : ∃ r : Fin 8192, j = ix1 r := ⟨j 0, eq_ix1 j⟩
  rw [kCorr_apply p t P T hP hT r, rCorr_apply r p t P T hP hT,
    corr_real (fun k => P (ix2 r k)) (fun k => T (ix2 r k)) epsR epsR_pos]

end Cert.RowStats

end
-- ==== Proof.FiniteIn.lean ====
/-
  The precondition read back: both argument arrays hold real numbers only.

  The precondition says that "|x| < +∞ at every entry" holds for each argument array, as the conjunction of two
  all-reductions by `and`. An extended real whose absolute value max x (−x) lies strictly below +∞ is neither
  +∞ nor −∞ (the absolute value of −∞ is +∞), hence a real number.
-/
import proofs.«171406_j30451318129051_2_alg».proof.Defs
import proofs.«171406_j30451318129051_2_alg».proof.Proof.Spec
import proofs.«171406_j30451318129051_2_alg».proof.Proof.Gen.Pre_finite_inputs
import Idealize.ShloMosaic.Lib.ReduceAll
import Idealize.ShloMosaic.Lib.ValueIdx

noncomputable section

open Idealize.ShloMosaic Idealize.ShloMosaic.ValueIdx Idealize.SL.Sem

namespace Cert.RowStats.FiniteIn

/-- The scalar shape has one index. -/
instance : Subsingleton Cert.Pre_finite_inputs.S_.Idx := ⟨fun a b => funext fun d => d.elim0⟩

/-- The word 0x7F800000 denotes +∞. -/
theorem ofBits_inf : Ideal.ofBits .f32 0x7F800000#32 = ⊤ := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ a : ℝ, x = (a : EReal) := by
  rw [ofBits_inf] at h
  unfold Ideal.cmp at h
  have h' : max x (-x) < ⊤ := by
    by_contra hn
    simp [hn] at h
  induction x using EReal.rec with
  | bot => simp at h'
  | top => simp at h'
  | coe a => exact ⟨a, rfl⟩

end Cert.RowStats.FiniteIn

namespace Cert.RowStats

open Cert.RowStats.FiniteIn

/-- Under the precondition every entry of both argument arrays is a real number. -/
theorem finite_of_pre [Cert.KernelIdeal.Facts] [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0))
    ∧ Finite (m ((c.tc : Thread Cert.KernelIdeal.nD Cert.KernelIdeal.τ).loc Cert.KernelIdeal.main_arg1)) := by
  have e := congrFun (h c) ix0
  dsimp only [Cert.Pre_finite_inputs.fn] at e
  obtain ⟨e0, e1⟩ := IntOp.andi_eq_one.1 e
  refine ⟨fun i => ?_, fun i => ?_⟩
  · exact real_of_abs_lt_inf _ (Host.reduce_andi_all _ _ _ _ _ e0 i)
  · exact real_of_abs_lt_inf _ (Host.reduce_andi_all _ _ _ _ _ e1 i)

end Cert.RowStats

end
-- ==== Proof.lean ====
/-
  The certificate of the row-statistics loss kernel against its jnp reference.

  Both programs return ½·MSE + ½·((1 − accuracy) + correlation loss)/2 of two [8192, 4096] inputs p, t. The kernel
  makes one pass over row tiles and keeps, per row, ∑p, ∑t, ∑p², ∑t², ∑pt and the number of lanes k < 4095 at which
  the steps of p and t have a positive product or t's step vanishes; the host then forms
  ∑(p − t)² = ∑p² + ∑t² − 2∑pt, the variance (∑x² − (∑x)²/n)/(n − 1) clamped at 0, and the covariance
  ∑pt/n − ∑p·∑t/n². The reference computes the same three quantities from the arrays: (p − t)² summed over both
  axes; sign(Δp) = sign(Δt) or sign(Δt) = 0 counted over the 4095 steps of each row; and the lane mean of the
  product of the two row-normalised arrays (x − mean)/(std + ε). Over finite inputs the three agree (the expansions
  of the square and of the centred sums, the sign rule a·b > 0 ∨ b = 0 ⇔ sign a = sign b ∨ sign b = 0, and
  a/u · b/v = ab/(uv) for positive u, v), and the closing arithmetic on them is the same term in both programs.

  The frames: each kernel program is its one pipelined region (a body that loads two blocks and stores one) followed
  by host operations that write only their own buffers; the reference is a straight run of host operations.
  The ideal pass rewrote nothing, so the kernel's idealization is its own text read over the extended reals.
-/
import proofs.«171406_j30451318129051_2_alg».proof.Defs
import proofs.«171406_j30451318129051_2_alg».proof.Proof.Gen.Kernel
import proofs.«171406_j30451318129051_2_alg».proof.Proof.Gen.Kernel.Skeleton
import proofs.«171406_j30451318129051_2_alg».proof.Proof.Gen.Kernel.Launch
import proofs.«171406_j30451318129051_2_alg».proof.Proof.Gen.Kernel.Points
import proofs.«171406_j30451318129051_2_alg».proof.Proof.Gen.KernelIdeal
import proofs.«171406_j30451318129051_2_alg».proof.Proof.Gen.KernelIdeal.Skeleton
import proofs.«171406_j30451318129051_2_alg».proof.Proof.Gen.KernelIdeal.Launch
import proofs.«171406_j30451318129051_2_alg».proof.Proof.Gen.KernelIdeal.Points
import proofs.«171406_j30451318129051_2_alg».proof.Proof.Gen.ReferenceIdeal
import proofs.«171406_j30451318129051_2_alg».proof.Proof.Gen.Pre_finite_inputs
import proofs.«171406_j30451318129051_2_alg».proof.Proof.RegionFrameBits
import proofs.«171406_j30451318129051_2_alg».proof.Proof.RegionFrame
import proofs.«171406_j30451318129051_2_alg».proof.Proof.RegionValue
import proofs.«171406_j30451318129051_2_alg».proof.Proof.RefRun
import proofs.«171406_j30451318129051_2_alg».proof.Proof.SqErr
import proofs.«171406_j30451318129051_2_alg».proof.Proof.Agree
import proofs.«171406_j30451318129051_2_alg».proof.Proof.Corr
import proofs.«171406_j30451318129051_2_alg».proof.Proof.FiniteIn
import Idealize.ShloMosaic.Adequacy
import Idealize.ShloMosaic.Init

noncomputable section

namespace Cert.Proof

open Idealize.ShloMosaic Idealize.SL.Sem Cert.RowStats

/-- The word-level kernel program runs to the end and leaves its inputs as launched. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- So does the reference: its run with the result dropped. -/
theorem frame_referenceIdeal : Cert.frame_ReferenceIdeal := fun m ρ _ => Cert.RowStats.ref_frame m ρ

/-- The ideal pass rewrote no operation of the kernel. -/
theorem preserves : Cert.preserves_Kernel_KernelIdeal := trivial

/-- Over inputs whose entries are real numbers the kernel's result term is the reference's: the total squared error,
    the agreement count and the per-row correlations agree, and the closing arithmetic on them is shared. -/
theorem bridge (p t : FVec Ideal Cert.KernelIdeal.S8192x4096 .f32) (hp : Finite p) (ht : Finite t) :
    KTail (KStats p t) = RTerm p t := by
  unfold KTail RTerm
  rw [sqErr_eq p t hp ht, agree_eq p t hp ht, corr_eq p t hp ht]

/-- From memories agreeing on the two inputs, both idealized programs end with the same result and unchanged inputs. -/
theorem algebraic : Cert.algebraic_KernelIdeal_ReferenceIdeal := by
  intro m ρ m' ρ' hpre hagree
  refine ⟨_, Cert.KernelIdeal.RegionValue.run m ρ, ?_⟩
  refine (θ_run Cert.ReferenceIdeal.defs _ _).mono (fun _ h c => ⟨(h c).1.trans ?_, (h c).2⟩)
    (Cert.RowStats.ref_run m' ρ')
  rw [(hagree c).1, (hagree c).2]
  obtain ⟨hp, ht⟩ := finite_of_pre m hpre c
  exact (bridge _ _ hp ht).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
